-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x224x224x3 : Shape := ⟨4, ![64, 224, 224, 3]⟩
abbrev S3840 : Shape := ⟨1, ![3840]⟩
abbrev S3840x768 : Shape := ⟨2, ![3840, 768]⟩
abbrev S768 : Shape := ⟨1, ![768]⟩
abbrev S_ : Shape := ⟨0, ![]⟩

class Facts : Prop where
  bcast_S_S64x224x224x3 : S_.BroadcastsInDim S64x224x224x3 (![] : Fin 0 → Fin S64x224x224x3.rank)
  reducesTo_S64x224x224x3_S_d0_1_2_3 : S64x224x224x3.ReducesTo [0, 1, 2, 3] S_
  h_S_ : 0 < S_.numel
  bcast_S_S3840 : S_.BroadcastsInDim S3840 (![] : Fin 0 → Fin S3840.rank)
  reducesTo_S3840_S_d0 : S3840.ReducesTo [0] S_
  bcast_S_S3840x768 : S_.BroadcastsInDim S3840x768 (![] : Fin 0 → Fin S3840x768.rank)
  reducesTo_S3840x768_S_d0_1 : S3840x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S3840x768 1) : IVec S_ 1 :=
  let main_c_5 : IVec S_ 1 := constantI S_ 1 1#1
  let main_v17 : IVec S_ 1 := (fun x v => Host.reduce IntOp.andi x v reducesTo_S3840x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S64x224x224x3 .f32) (main_arg1 : FVec F S3840 .f32) (main_arg2 : FVec F S3840 .f32) (main_arg3 : FVec F S3840x768 .f32) (main_arg4 : FVec F S768 .f32) : IVec S_ 1 :=
  let main_v0 : FVec F S64x224x224x3 .f32 := Host.absf main_arg0
  let main_cst : FVec F S_ .f32 := constant S_ .f32 0x7F800000#32
  let main_v1 : FVec F S64x224x224x3 .f32 := broadcastInDim S64x224x224x3 ![] bcast_S_S64x224x224x3 main_cst
  let main_v2 : IVec S64x224x224x3 1 := cmpf .olt main_v0 main_v1
  let main_c : IVec S_ 1 := constantI S_ 1 1#1
  let main_v3 : IVec S_ 1 := (fun x v => Host.reduce IntOp.andi x v reducesTo_S64x224x224x3_S_d0_1_2_3 h_S_) main_v2 main_c
  let main_v4 : FVec F S3840 .f32 := Host.absf main_arg1
  let main_cst_0 : FVec F S_ .f32 := constant S_ .f32 0x7F800000#32
  let main_v5 : FVec F S3840 .f32 := broadcastInDim S3840 ![] bcast_S_S3840 main_cst_0
  let main_v6 : IVec S3840 1 := cmpf .olt main_v4 main_v5
  let main_c_1 : IVec S_ 1 := constantI S_ 1 1#1
  let main_v7 : IVec S_ 1 := (fun x v => Host.reduce IntOp.andi x v reducesTo_S3840_S_d0 h_S_) main_v6 main_c_1
  let main_v8 : IVec S_ 1 := andi main_v3 main_v7
  let main_v9 : FVec F S3840 .f32 := Host.absf main_arg2
  let main_cst_2 : FVec F S_ .f32 := constant S_ .f32 0x7F800000#32
  let main_v10 : FVec F S3840 .f32 := broadcastInDim S3840 ![] bcast_S_S3840 main_cst_2
  let main_v11 : IVec S3840 1 := cmpf .olt main_v9 main_v10
  let main_c_3 : IVec S_ 1 := constantI S_ 1 1#1
  let main_v12 : IVec S_ 1 := (fun x v => Host.reduce IntOp.andi x v reducesTo_S3840_S_d0 h_S_) main_v11 main_c_3
  let main_v13 : IVec S_ 1 := andi main_v8 main_v12
  let main_v14 : FVec F S3840x768 .f32 := Host.absf main_arg3
  let main_cst_4 : FVec F S_ .f32 := constant S_ .f32 0x7F800000#32
  let main_v15 : FVec F S3840x768 .f32 := broadcastInDim S3840x768 ![] bcast_S_S3840x768 main_cst_4
  let main_v16 : IVec S3840x768 1 := cmpf .olt main_v14 main_v15
  fn_part1 (F := F) main_arg4 main_v13 main_v16
-- ==== Kernel.lean ====
abbrev S64x224x224x3 : Shape := ⟨4, ![64, 224, 224, 3]⟩
abbrev S3840 : Shape := ⟨1, ![3840]⟩
abbrev S3840x768 : Shape := ⟨2, ![3840, 768]⟩
abbrev S768 : Shape := ⟨1, ![768]⟩
abbrev S64x216x216x3 : Shape := ⟨4, ![64, 216, 216, 3]⟩
abbrev S_ : Shape := ⟨0, ![]⟩
abbrev S64x224x224x15 : Shape := ⟨4, ![64, 224, 224, 15]⟩
abbrev S64x14x16x14x16x15 : Shape := ⟨6, ![64, 14, 16, 14, 16, 15]⟩
abbrev S64x14x14x16x16x15 : Shape := ⟨6, ![64, 14, 14, 16, 16, 15]⟩
abbrev S64x14x14x3840 : Shape := ⟨4, ![64, 14, 14, 3840]⟩
abbrev S12544x3840 : Shape := ⟨2, ![12544, 3840]⟩
abbrev S1x3840 : Shape := ⟨2, ![1, 3840]⟩
abbrev S1x768 : Shape := ⟨2, ![1, 768]⟩
abbrev S12544x768 : Shape := ⟨2, ![12544, 768]⟩
abbrev S256x3840 : Shape := ⟨2, ![256, 3840]⟩
abbrev S256x768 : Shape := ⟨2, ![256, 768]⟩
abbrev S256 : Shape := ⟨1, ![256]⟩
abbrev S256x1 : Shape := ⟨2, ![256, 1]⟩
abbrev S64x196x768 : Shape := ⟨3, ![64, 196, 768]⟩

abbrev nBuf : Space → Nat
  | .hbm => 32
  | .vmem => 8
  | .smem => 0
  | _ => 0

abbrev bufTy : (tb : Table) → Fin (tcTables nBuf tb) → BufTy
  | .hbm, ⟨0, _⟩ => ⟨S64x224x224x3, .f32⟩
  | .hbm, ⟨1, _⟩ => ⟨S3840, .f32⟩
  | .hbm, ⟨2, _⟩ => ⟨S3840, .f32⟩
  | .hbm, ⟨3, _⟩ => ⟨S3840x768, .f32⟩
  | .hbm, ⟨4, _⟩ => ⟨S768, .f32⟩
  | .hbm, ⟨5, _⟩ => ⟨S64x216x216x3, .f32⟩
  | .hbm, ⟨6, _⟩ => ⟨S_, .i32⟩
  | .hbm, ⟨7, _⟩ => ⟨S_, .f32⟩
  | .hbm, ⟨8, _⟩ => ⟨S64x224x224x3, .f32⟩
  | .hbm, ⟨9, _⟩ => ⟨S64x216x216x3, .f32⟩
  | .hbm, ⟨10, _⟩ => ⟨S_, .i32⟩
  | .hbm, ⟨11, _⟩ => ⟨S_, .f32⟩
  | .hbm, ⟨12, _⟩ => ⟨S64x224x224x3, .f32⟩
  | .hbm, ⟨13, _⟩ => ⟨S64x216x216x3, .f32⟩
  | .hbm, ⟨14, _⟩ => ⟨S_, .i32⟩
  | .hbm, ⟨15, _⟩ => ⟨S_, .f32⟩
  | .hbm, ⟨16, _⟩ => ⟨S64x224x224x3, .f32⟩
  | .hbm, ⟨17, _⟩ => ⟨S64x216x216x3, .f32⟩
  | .hbm, ⟨18, _⟩ => ⟨S_, .i32⟩
  | .hbm, ⟨19, _⟩ => ⟨S_, .f32⟩
  | .hbm, ⟨20, _⟩ => ⟨S64x224x224x3, .f32⟩
  | .hbm, ⟨21, _⟩ => ⟨S64x224x224x15, .f32⟩
  | .hbm, ⟨22, _⟩ => ⟨S64x14x16x14x16x15, .f32⟩
  | .hbm, ⟨23, _⟩ => ⟨S64x14x14x16x16x15, .f32⟩
  | .hbm, ⟨24, _⟩ => ⟨S64x14x14x3840, .f32⟩
  | .hbm, ⟨25, _⟩ => ⟨S12544x3840, .f32⟩
  | .hbm, ⟨26, _⟩ => ⟨S3840x768, .bf16⟩
  | .hbm, ⟨27, _⟩ => ⟨S1x3840, .f32⟩
  | .hbm, ⟨28, _⟩ => ⟨S1x3840, .f32⟩
  | .hbm, ⟨29, _⟩ => ⟨S1x768, .f32⟩
  | .hbm, ⟨30, _⟩ => ⟨S12544x768, .f32⟩
  | .hbm, ⟨31, _⟩ => ⟨S64x196x768, .f32⟩
  | .local _ .vmem, ⟨0, _⟩ => ⟨S256x3840, .f32⟩
  | .local _ .vmem, ⟨1, _⟩ => ⟨S256x3840, .f32⟩
  | .local _ .vmem, ⟨2, _⟩ => ⟨S1x3840, .f32⟩
  | .local _ .vmem, ⟨3, _⟩ => ⟨S1x3840, .f32⟩
  | .local _ .vmem, ⟨4, _⟩ => ⟨S3840x768, .bf16⟩
  | .local _ .vmem, ⟨5, _⟩ => ⟨S1x768, .f32⟩
  | .local _ .vmem, ⟨6, _⟩ => ⟨S256x768, .f32⟩
  | .local _ .vmem, ⟨7, _⟩ => ⟨S256x768, .f32⟩
  | _, _ => ⟨S64x224x224x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_call3_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3840 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3840 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3840 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3840x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S64x224x224x3_S64x216x216x3_0_8_8_0 : S64x224x224x3.Slices ![0, 8, 8, 0] S64x216x216x3
  pads_S64x216x216x3_S64x224x224x3_000_080_080_000 : S64x216x216x3.Pads (![0, 0, 0, 0] : Fin 4 → Nat) ![0, 8, 8, 0] ![0, 0, 0, 0] S64x224x224x3
  h_S_ : 0 < S_.numel
  slices_S64x224x224x3_S64x216x216x3_0_0_8_0 : S64x224x224x3.Slices ![0, 0, 8, 0] S64x216x216x3
  pads_S64x216x216x3_S64x224x224x3_000_800_080_000 : S64x216x216x3.Pads (![0, 8, 0, 0] : Fin 4 → Nat) ![0, 0, 8, 0] ![0, 0, 0, 0] S64x224x224x3
  slices_S64x224x224x3_S64x216x216x3_0_8_0_0 : S64x224x224x3.Slices ![0, 8, 0, 0] S64x216x216x3
  pads_S64x216x216x3_S64x224x224x3_000_080_800_000 : S64x216x216x3.Pads (![0, 0, 8, 0] : Fin 4 → Nat) ![0, 8, 0, 0] ![0, 0, 0, 0] S64x224x224x3
  slices_S64x224x224x3_S64x216x216x3_0_0_0_0 : S64x224x224x3.Slices ![0, 0, 0, 0] S64x216x216x3
  pads_S64x216x216x3_S64x224x224x3_000_800_800_000 : S64x216x216x3.Pads (![0, 8, 8, 0] : Fin 4 → Nat) ![0, 0, 0, 0] ![0, 0, 0, 0] S64x224x224x3
  concatenates_S64x224x224x3_S64x224x224x3_S64x224x224x3_S64x224x224x3_S64x224x224x3_S64x224x224x15_d3 : Shape.Concatenates [S64x224x224x3, S64x224x224x3, S64x224x224x3, S64x224x224x3, S64x224x224x3] S64x224x224x15 3
  shapeCasts_S64x224x224x15_S64x14x16x14x16x15 : S64x224x224x15.ShapeCasts S64x14x16x14x16x15
  transposes_S64x14x16x14x16x15_S64x14x14x16x16x15_0_1_3_2_4_5 : S64x14x16x14x16x15.Transposes [0, 1, 3, 2, 4, 5] S64x14x14x16x16x15
  shapeCasts_S64x14x14x16x16x15_S64x14x14x3840 : S64x14x14x16x16x15.ShapeCasts S64x14x14x3840
  shapeCasts_S64x14x14x3840_S12544x3840 : S64x14x14x3840.ShapeCasts S12544x3840
  bitsLt_bf16_f32 : FTy.bits .bf16 < FTy.bits .f32
  shapeCasts_S3840_S1x3840 : S3840.ShapeCasts S1x3840
  shapeCasts_S768_S1x768 : S768.ShapeCasts S1x768
  inb_S256x3840_S256x3840_0_0 : ∀ a, (![0, 0] : Fin 2 → Nat) a + S256x3840.size a ≤ S256x3840.size a
  h_S256x3840 : 0 < S256x3840.numel
  shapeCasts_S256x3840_S256x3840 : S256x3840.ShapeCasts S256x3840
  reduces_S256x3840_S256 : S256x3840.Reduces [1] S256
  shapeCasts_S256_S256x1 : S256.ShapeCasts S256x1
  broadcasts_S256x1_S256x3840 : S256x1.Broadcasts S256x3840
  inb_S1x3840_S1x3840_0_0 : ∀ a, (![0, 0] : Fin 2 → Nat) a + S1x3840.size a ≤ S1x3840.size a
  h_S1x3840 : 0 < S1x3840.numel
  shapeCasts_S1x3840_S1x3840 : S1x3840.ShapeCasts S1x3840
  broadcasts_S1x3840_S256x3840 : S1x3840.Broadcasts S256x3840
  inb_S3840x768_S3840x768_0_0 : ∀ a, (![0, 0] : Fin 2 → Nat) a + S3840x768.size a ≤ S3840x768.size a
  h_S3840x768 : 0 < S3840x768.numel
  shapeCasts_S3840x768_S3840x768 : S3840x768.ShapeCasts S3840x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  inb_S256x768_S256x768_0_0 : ∀ a, (![0, 0] : Fin 2 → Nat) a + S256x768.size a ≤ S256x768.size a
  h_S256x768 : 0 < S256x768.numel
  shapeCasts_S12544x768_S64x196x768 : S12544x768.ShapeCasts S64x196x768
  dot_S256x3840_S3840x768_S256x768_1_0_0_1_n_n_wf : DotDims.WF S256x3840 S3840x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3840.size a ≤ S12544x3840.size a
  hwx0_0 : ∀ i : grid0.Coords, EltTy.bits .f32 = 32 ∨ (Rect.block (s := S12544x3840) S256x3840.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x3840.size a ≤ S1x3840.size a
  hwx0_1 : ∀ i : grid0.Coords, EltTy.bits .f32 = 32 ∨ (Rect.block (s := S1x3840) S1x3840.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3840.size a ≤ S1x3840.size a
  hwx0_2 : ∀ i : grid0.Coords, EltTy.bits .f32 = 32 ∨ (Rect.block (s := S1x3840) S1x3840.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3840x768.size a ≤ S3840x768.size a
  hwx0_3 : ∀ i : grid0.Coords, EltTy.bits .bf16 = 32 ∨ (Rect.block (s := S3840x768) S3840x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x768.size a ≤ S12544x768.size a
  hwx0_5 : ∀ i : grid0.Coords, EltTy.bits .f32 = 32 ∨ (Rect.block (s := S12544x768) S256x768.size (cc0_transform_5 i) (hinb0_5 i)).WholeWords (EltTy.packing .f32)

variable [Facts₀]

def dot_S256x3840_S3840x768_S256x768_1_0_0_1_n_n : DotDims S256x3840 S3840x768 S256x768 where
  lhsContracting := [1]
  rhsContracting := [0]
  lhsNonContracting := [0]
  rhsNonContracting := [1]
  lhsBatch := []
  rhsBatch := []
  wf := dot_S256x3840_S3840x768_S256x768_1_0_0_1_n_n_wf

abbrev win0_0 : Pipeline.Window sig grid0 :=
  Pipeline.Window.ofSpec (Memref.whole main_v12) S256x3840.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x3840.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x3840.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S3840x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S256x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x224x224x3 : Shape := ⟨4, ![64, 224, 224, 3]⟩
abbrev S3840 : Shape := ⟨1, ![3840]⟩
abbrev S3840x768 : Shape := ⟨2, ![3840, 768]⟩
abbrev S768 : Shape := ⟨1, ![768]⟩
abbrev S64x216x216x3 : Shape := ⟨4, ![64, 216, 216, 3]⟩
abbrev S_ : Shape := ⟨0, ![]⟩
abbrev S64x224x224x15 : Shape := ⟨4, ![64, 224, 224, 15]⟩
abbrev S64x14x16x14x16x15 : Shape := ⟨6, ![64, 14, 16, 14, 16, 15]⟩
abbrev S64x14x14x16x16x15 : Shape := ⟨6, ![64, 14, 14, 16, 16, 15]⟩
abbrev S64x14x14x3840 : Shape := ⟨4, ![64, 14, 14, 3840]⟩
abbrev S64x196x3840 : Shape := ⟨3, ![64, 196, 3840]⟩
abbrev S64x196 : Shape := ⟨2, ![64, 196]⟩
abbrev S64x196x1 : Shape := ⟨3, ![64, 196, 1]⟩
abbrev S1x1x3840 : Shape := ⟨3, ![1, 1, 3840]⟩
abbrev S64x196x768 : Shape := ⟨3, ![64, 196, 768]⟩
abbrev S1x1x768 : Shape := ⟨3, ![1, 1, 768]⟩

abbrev nBuf : Space → Nat
  | .hbm => 59
  | .vmem => 0
  | .smem => 0
  | _ => 0

abbrev bufTy : (tb : Table) → Fin (tcTables nBuf tb) → BufTy
  | .hbm, ⟨0, _⟩ => ⟨S64x224x224x3, .f32⟩
  | .hbm, ⟨1, _⟩ => ⟨S3840, .f32⟩
  | .hbm, ⟨2, _⟩ => ⟨S3840, .f32⟩
  | .hbm, ⟨3, _⟩ => ⟨S3840x768, .f32⟩
  | .hbm, ⟨4, _⟩ => ⟨S768, .f32⟩
  | .hbm, ⟨5, _⟩ => ⟨S64x216x216x3, .f32⟩
  | .hbm, ⟨6, _⟩ => ⟨S_, .i32⟩
  | .hbm, ⟨7, _⟩ => ⟨S_, .f32⟩
  | .hbm, ⟨8, _⟩ => ⟨S64x224x224x3, .f32⟩
  | .hbm, ⟨9, _⟩ => ⟨S64x216x216x3, .f32⟩
  | .hbm, ⟨10, _⟩ => ⟨S_, .i32⟩
  | .hbm, ⟨11, _⟩ => ⟨S_, .f32⟩
  | .hbm, ⟨12, _⟩ => ⟨S64x224x224x3, .f32⟩
  | .hbm, ⟨13, _⟩ => ⟨S64x216x216x3, .f32⟩
  | .hbm, ⟨14, _⟩ => ⟨S_, .i32⟩
  | .hbm, ⟨15, _⟩ => ⟨S_, .f32⟩
  | .hbm, ⟨16, _⟩ => ⟨S64x224x224x3, .f32⟩
  | .hbm, ⟨17, _⟩ => ⟨S64x216x216x3, .f32⟩
  | .hbm, ⟨18, _⟩ => ⟨S_, .i32⟩
  | .hbm, ⟨19, _⟩ => ⟨S_, .f32⟩
  | .hbm, ⟨20, _⟩ => ⟨S64x224x224x3, .f32⟩
  | .hbm, ⟨21, _⟩ => ⟨S64x224x224x15, .f32⟩
  | .hbm, ⟨22, _⟩ => ⟨S64x14x16x14x16x15, .f32⟩
  | .hbm, ⟨23, _⟩ => ⟨S64x14x14x16x16x15, .f32⟩
  | .hbm, ⟨24, _⟩ => ⟨S64x14x14x3840, .f32⟩
  | .hbm, ⟨25, _⟩ => ⟨S64x196x3840, .f32⟩
  | .hbm, ⟨26, _⟩ => ⟨S_, .f32⟩
  | .hbm, ⟨27, _⟩ => ⟨S64x196, .f32⟩
  | .hbm, ⟨28, _⟩ => ⟨S64x196x1, .f32⟩
  | .hbm, ⟨29, _⟩ => ⟨S_, .f32⟩
  | .hbm, ⟨30, _⟩ => ⟨S64x196x1, .f32⟩
  | .hbm, ⟨31, _⟩ => ⟨S64x196x1, .f32⟩
  | .hbm, ⟨32, _⟩ => ⟨S64x196x3840, .f32⟩
  | .hbm, ⟨33, _⟩ => ⟨S64x196x3840, .f32⟩
  | .hbm, ⟨34, _⟩ => ⟨S64x196x3840, .f32⟩
  | .hbm, ⟨35, _⟩ => ⟨S_, .f32⟩
  | .hbm, ⟨36, _⟩ => ⟨S64x196, .f32⟩
  | .hbm, ⟨37, _⟩ => ⟨S64x196x1, .f32⟩
  | .hbm, ⟨38, _⟩ => ⟨S_, .f32⟩
  | .hbm, ⟨39, _⟩ => ⟨S64x196x1, .f32⟩
  | .hbm, ⟨40, _⟩ => ⟨S64x196x1, .f32⟩
  | .hbm, ⟨41, _⟩ => ⟨S64x196x3840, .f32⟩
  | .hbm, ⟨42, _⟩ => ⟨S64x196x3840, .f32⟩
  | .hbm, ⟨43, _⟩ => ⟨S_, .f32⟩
  | .hbm, ⟨44, _⟩ => ⟨S64x196x1, .f32⟩
  | .hbm, ⟨45, _⟩ => ⟨S64x196x1, .f32⟩
  | .hbm, ⟨46, _⟩ => ⟨S64x196x1, .f32⟩
  | .hbm, ⟨47, _⟩ => ⟨S64x196x3840, .f32⟩
  | .hbm, ⟨48, _⟩ => ⟨S64x196x3840, .f32⟩
  | .hbm, ⟨49, _⟩ => ⟨S1x1x3840, .f32⟩
  | .hbm, ⟨50, _⟩ => ⟨S64x196x3840, .f32⟩
  | .hbm, ⟨51, _⟩ => ⟨S64x196x3840, .f32⟩
  | .hbm, ⟨52, _⟩ => ⟨S1x1x3840, .f32⟩
  | .hbm, ⟨53, _⟩ => ⟨S64x196x3840, .f32⟩
  | .hbm, ⟨54, _⟩ => ⟨S64x196x3840, .f32⟩
  | .hbm, ⟨55, _⟩ => ⟨S64x196x768, .f32⟩
  | .hbm, ⟨56, _⟩ => ⟨S1x1x768, .f32⟩
  | .hbm, ⟨57, _⟩ => ⟨S64x196x768, .f32⟩
  | .hbm, ⟨58, _⟩ => ⟨S64x196x768, .f32⟩
  | _, _ => ⟨S64x224x224x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_call3_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]

class Facts₀ : Prop where
  slices_S64x224x224x3_S64x216x216x3_0_8_8_0 : S64x224x224x3.Slices ![0, 8, 8, 0] S64x216x216x3
  pads_S64x216x216x3_S64x224x224x3_000_080_080_000 : S64x216x216x3.Pads (![0, 0, 0, 0] : Fin 4 → Nat) ![0, 8, 8, 0] ![0, 0, 0, 0] S64x224x224x3
  h_S_ : 0 < S_.numel
  slices_S64x224x224x3_S64x216x216x3_0_0_8_0 : S64x224x224x3.Slices ![0, 0, 8, 0] S64x216x216x3
  pads_S64x216x216x3_S64x224x224x3_000_800_080_000 : S64x216x216x3.Pads (![0, 8, 0, 0] : Fin 4 → Nat) ![0, 0, 8, 0] ![0, 0, 0, 0] S64x224x224x3
  slices_S64x224x224x3_S64x216x216x3_0_8_0_0 : S64x224x224x3.Slices ![0, 8, 0, 0] S64x216x216x3
  pads_S64x216x216x3_S64x224x224x3_000_080_800_000 : S64x216x216x3.Pads (![0, 0, 8, 0] : Fin 4 → Nat) ![0, 8, 0, 0] ![0, 0, 0, 0] S64x224x224x3
  slices_S64x224x224x3_S64x216x216x3_0_0_0_0 : S64x224x224x3.Slices ![0, 0, 0, 0] S64x216x216x3
  pads_S64x216x216x3_S64x224x224x3_000_800_800_000 : S64x216x216x3.Pads (![0, 8, 8, 0] : Fin 4 → Nat) ![0, 0, 0, 0] ![0, 0, 0, 0] S64x224x224x3
  concatenates_S64x224x224x3_S64x224x224x3_S64x224x224x3_S64x224x224x3_S64x224x224x3_S64x224x224x15_d3 : Shape.Concatenates [S64x224x224x3, S64x224x224x3, S64x224x224x3, S64x224x224x3, S64x224x224x3] S64x224x224x15 3
  shapeCasts_S64x224x224x15_S64x14x16x14x16x15 : S64x224x224x15.ShapeCasts S64x14x16x14x16x15
  transposes_S64x14x16x14x16x15_S64x14x14x16x16x15_0_1_3_2_4_5 : S64x14x16x14x16x15.Transposes [0, 1, 3, 2, 4, 5] S64x14x14x16x16x15
  shapeCasts_S64x14x14x16x16x15_S64x14x14x3840 : S64x14x14x16x16x15.ShapeCasts S64x14x14x3840
  shapeCasts_S64x14x14x3840_S64x196x3840 : S64x14x14x3840.ShapeCasts S64x196x3840
  reducesTo_S64x196x3840_S64x196_d2 : S64x196x3840.ReducesTo [2] S64x196
  bcast_S64x196_S64x196x1_0_1 : S64x196.BroadcastsInDim S64x196x1 (![0, 1] : Fin 2 → Fin S64x196x1.rank)
  bcast_S_S64x196x1 : S_.BroadcastsInDim S64x196x1 (![] : Fin 0 → Fin S64x196x1.rank)
  bcast_S64x196x1_S64x196x3840_0_1_2 : S64x196x1.BroadcastsInDim S64x196x3840 (![0, 1, 2] : Fin 3 → Fin S64x196x3840.rank)
  bcast_S3840_S1x1x3840_2 : S3840.BroadcastsInDim S1x1x3840 (![2] : Fin 1 → Fin S1x1x3840.rank)
  bcast_S1x1x3840_S64x196x3840_0_1_2 : S1x1x3840.BroadcastsInDim S64x196x3840 (![0, 1, 2] : Fin 3 → Fin S64x196x3840.rank)
  bcast_S768_S1x1x768_2 : S768.BroadcastsInDim S1x1x768 (![2] : Fin 1 → Fin S1x1x768.rank)
  bcast_S1x1x768_S64x196x768_0_1_2 : S1x1x768.BroadcastsInDim S64x196x768 (![0, 1, 2] : Fin 3 → Fin S64x196x768.rank)
  dot_S64x196x3840_S3840x768_S64x196x768_2_0_01_1_n_n_wf : DotDims.WF S64x196x3840 S3840x768 S64x196x768 [2] [0] [0, 1] [1] [] []

variable [Facts₀]

def dot_S64x196x3840_S3840x768_S64x196x768_2_0_01_1_n_n : DotDims S64x196x3840 S3840x768 S64x196x768 where
  lhsContracting := [2]
  rhsContracting := [0]
  lhsNonContracting := [0, 1]
  rhsNonContracting := [1]
  lhsBatch := []
  rhsBatch := []
  wf := dot_S64x196x3840_S3840x768_S64x196x768_2_0_01_1_n_n_wf

class Facts : Prop extends Facts₀ where

variable [Facts]
-- ==== Proof.KernelFrame.lean ====
/-
  The run of `Kernel`'s @main, and from it the frame: every weakly fair execution terminates, faults nowhere, and
  leaves the five argument arrays as it found them.

  @main is nine straight stretches of host operations (four shifted crops of the image, each padded back to
  224 x 224, their concatenation along the channel axis, the cut into 16 x 16 patches, and the re-laid parameters),
  one launch of the layer-norm-and-projection kernel over a grid of 49 row tiles, and one last host reshape.
  The launch is read through the pipeline library: what the region finds in every buffer is the host stretches'
  composed result (`entryVal`); at grid point `t` the kernel body is handed row tile `t` of the patch matrix
  (256 rows of 3840 entries) and the four parameter blocks whole, and leaves in the output's staging buffer one
  value, a pure function of those five blocks (`tileOut`); that value is written back as row tile `t` of the
  result.  The body's separation-logic triple is obtained by symbolic execution of its six loads and one store.
  Written for any float instance `F`.
-/
import proofs.«145654_j27805618274639_2_alg».proof.Proof.Gen.Kernel.Launch
import proofs.«145654_j27805618274639_2_alg».proof.Proof.Gen.Kernel.Skeleton
import proofs.«145654_j27805618274639_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- The host stretches before the launch, in program order. -/
abbrev hostBefore : List (List (HloOp τ sig (Elt F))) :=
  [hostOps0, hostOps0_1, hostOps0_2, hostOps0_3, hostOps0_4, hostOps0_5, hostOps0_6, hostOps0_7, hostOps0_8]

/-- Every buffer of core `c` as the launch finds it: the launch contents `m` pushed through the host stretches. -/
abbrev entryVal (c : Dev nD) : Valuation τ sig (Elt F) := StableHlo.after (List.flatten (hostBefore (F := F))) (fun b => m (c, b))
/-- The same, read at a TensorCore reference. -/
abbrev entryAt (c : Dev nD) (b : Ref sig .tc) : Buf (Elt F) ((c : Thread nD τ).loc b) := entryVal m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the launch continued by the last reshape, every unscoped buffer then at `entryAt`. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main (hostBefore (F := F)) [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩)
    main_chain

/-- The reshape after the launch touches only unscoped TensorCore buffers, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the six arrays the launch stages (it writes the reshaped result only). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- A reference none of the host stretches writes is found by the launch as @main was started with it. -/
theorem entry_untouched (c : Dev nD) (r : Ref sig .tc)
    (hr : r ∉ [main_v0, main_c, main_call0_v0, main_v1, main_v2, main_c_0, main_call1_v0, main_v3, main_v4, main_c_1, main_call2_v0, main_v5,
      main_v6, main_c_2, main_call3_v0, main_v7, main_v8, main_v9, main_v10, main_v11, main_v12, main_v13, main_v14, main_v15, main_v16]) :
    entryAt m c r = m ((c : Thread nD τ).loc r) :=
  StableHlo.after_of_writes_sub (W := [main_v0, main_c, main_call0_v0, main_v1, main_v2, main_c_0, main_call1_v0, main_v3, main_v4, main_c_1, main_call2_v0, main_v5,
      main_v6, main_c_2, main_call3_v0, main_v7, main_v8, main_v9, main_v10, main_v11, main_v12, main_v13, main_v14, main_v15, main_v16]) _ _ (by
    simp only [hostBefore, hostOps0, hostOps0_1, hostOps0_2, hostOps0_3, hostOps0_4, hostOps0_5, hostOps0_6, hostOps0_7, hostOps0_8,
      List.flatten_cons, List.flatten_nil, List.append_nil, List.cons_append, List.nil_append, List.Forall,
      StableHlo.nullary_writes, StableHlo.unary_writes, StableHlo.binary_writes, StableHlo.reshape_writes, StableHlo.nary_writes]
    repeat' apply And.intro
    all_goals
      intro x hx
      rw [Finset.mem_singleton] at hx
      subst hx
      simp only [List.map_cons, List.toFinset_cons, Finset.mem_insert, true_or, or_true]) hr

/-- The reshape after the launch writes no argument array either: an argument ends as @main was started with it. -/
theorem exit_untouched (dats : (p : Fin _) → (c : Dev nD) → Dat τ (Elt F) Unit ℕ (UR sig nD τ) ℕ (cfgs p) c) (c : Dev nD) (r : Ref sig .tc)
    (h18 : r ≠ main_v18) (harr : ∀ w, Pipeline.arrRef spec0 w ≠ r)
    (hr : r ∉ [main_v0, main_c, main_call0_v0, main_v1, main_v2, main_c_0, main_call1_v0, main_v3, main_v4, main_c_1, main_call2_v0, main_v5,
      main_v6, main_c_2, main_call3_v0, main_v7, main_v8, main_v9, main_v10, main_v11, main_v12, main_v13, main_v14, main_v15, main_v16]) :
    Pipeline.afterTail₀ cfgs dats 0 (entryVal m) [hostOps1] c r = m ((c : Thread nD τ).loc r) := by
  unfold Pipeline.afterTail₀
  rw [StableHlo.after_of_forall_not_mem (b := Proc.devRef .tc r) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne h18)),
    Pipeline.withArrays_of_ne _ c (entryVal m c) _ r harr]
  exact entry_untouched m c r hr

/-! ## The windows' blocks -/

/-- Window `w`'s block at grid point `t`, read off its array as the launch finds it: for the patch matrix rows
    `256 t … 256 t + 255`, for each of the four parameter arrays the whole array. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-! ## The body -/

abbrev rectX : Rect S256x3840 := Rect.unit (s := S256x3840) ![0, 0] S256x3840.size inb_S256x3840_S256x3840_0_0
abbrev rectG : Rect S1x3840 := Rect.unit (s := S1x3840) ![0, 0] S1x3840.size inb_S1x3840_S1x3840_0_0
abbrev rectW : Rect S3840x768 := Rect.unit (s := S3840x768) ![0, 0] S3840x768.size inb_S3840x768_S3840x768_0_0
abbrev rectB : Rect S1x768 := Rect.unit (s := S1x768) ![0, 0] S1x768.size inb_S1x768_S1x768_0_0
abbrev rectO : Rect S256x768 := Rect.unit (s := S256x768) ![0, 0] S256x768.size inb_S256x768_S256x768_0_0

/-- What the body leaves in the output's staging buffer, from the five input blocks: its one store, which covers the
    buffer, of the body's arithmetic on the five whole-block loads. -/
def tileOut (x : Vec F S256x3840 .f32) (g : Vec F S1x3840 .f32) (be : Vec F S1x3840 .f32) (wt : Vec F S3840x768 .bf16) (bi : Vec F S1x768 .f32) :
    Vec F S256x768 .f32 :=
  View.canon [⟨rectO, k0_pay1 (View.ld x rectX) (View.ld g rectG) (View.ld be rectG) (View.ld wt rectW) (View.ld bi rectB)⟩]

/-- The one store covers the output block. -/
theorem store_covers (p0 : Vec F S256x768 .f32) (y : S256x768.Idx) :
    ∃ pc ∈ ([⟨rectO, p0⟩] : List (View.Piece (Elt F) S256x768 .f32)), y ∈ pc.1.set :=
  View.cover_of_tiled [⟨rectO, p0⟩] S256x768.size (by rfl) y

set_option maxHeartbeats 1000000 in
/-- The body on whole staging memrefs — the five inputs at contents `x g be wt bi`, the output at anything — runs to
    its end leaving the inputs as they were and the output at `tileOut` of them. -/
theorem body_triple (c : Dev nD) (E : Set ℕ) (i : grid0.Coords)
    (a1 : Memref sig .tc .vmem S256x3840 .f32) (h1 : a1.IsWhole) (a2 : Memref sig .tc .vmem S1x3840 .f32) (h2 : a2.IsWhole)
    (a3 : Memref sig .tc .vmem S1x3840 .f32) (h3 : a3.IsWhole) (a4 : Memref sig .tc .vmem S3840x768 .bf16) (h4 : a4.IsWhole)
    (a5 : Memref sig .tc .vmem S1x768 .f32) (h5 : a5.IsWhole) (a6 : Memref sig .tc .vmem S256x768 .f32) (h6 : a6.IsWhole)
    (x : Vec F S256x3840 .f32) (g : Vec F S1x3840 .f32) (be : Vec F S1x3840 .f32) (wt : Vec F S3840x768 .bf16) (bi : Vec F S1x768 .f32)
    (K : PUnit → sProp 𝕄) :
    iprop(owns (c : Thread nD τ) a1 fullShare x ∗ owns (c : Thread nD τ) a2 fullShare g ∗ owns (c : Thread nD τ) a3 fullShare be
        ∗ owns (c : Thread nD τ) a4 fullShare wt ∗ owns (c : Thread nD τ) a5 fullShare bi ∗ (∃ d, owns (c : Thread nD τ) a6 fullShare d)
        ∗ (iprop(owns (c : Thread nD τ) a1 fullShare x ∗ owns (c : Thread nD τ) a2 fullShare g ∗ owns (c : Thread nD τ) a3 fullShare be
            ∗ owns (c : Thread nD τ) a4 fullShare wt ∗ owns (c : Thread nD τ) a5 fullShare bi
            ∗ owns (c : Thread nD τ) a6 fullShare (tileOut x g be wt bi)) -∗ K ⟨⟩))
      ⊢ wp frame (wpE (defs₀ (F := F)) Variants.none c none) E (cc0__ln_dense_kernel i a1 h1 a2 h2 a3 h3 a4 h4 a5 h5 a6 h6) K := by
  simp only [cc0__ln_dense_kernel_eq_skeleton]; unfold cc0__ln_dense_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (store_covers _)

/-! ## The pipeline's proof data -/

/-- On core `c`: the arrays as the launch finds them; after the body at point `t` every input's buffer still at its
    block and the output's at `tileOut` of the five blocks; the kernel keeps nothing between points. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => tileOut (blockAt m c 0 t) (blockAt m c 1 t) (blockAt m c 2 t) (blockAt m c 3 t) (blockAt m c 4 t)
  Φ _ := Pipeline.ΦA spec0 c
  q _ := fullShare
  owed _ := 0

theorem arrays_eq (c : Dev nD) (w : Fin cfg0.W) : (dats m 0 c).A w = entryAt m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t
    = tileOut (blockAt m c 0 t) (blockAt m c 1 t) (blockAt m c 2 t) (blockAt m c 3 t) (blockAt m c 4 t) := by dsimp only [dats]

/-- An input's current staging buffer holds its block at every point: where it was fetched, by the fetch; where it
    was not, its block index has not moved since the fetch and the body left the block in place. -/
theorem before_0 (c : Dev nD) (t : Fin cfg0.N) (d) : (dats m 0 c).before 0 t d = blockAt m c 0 t :=
  ((dats m 0 c).before_in_eq_fetched 0 rfl (fun _ => rfl) (fun _ _ _ => rfl)
    (fun t => by rw [after_0]; unfold Dat.blockOf blockAt; rw [arrays_eq]; try rfl) t d).trans
    (by unfold Dat.fetched Dat.blockOf blockAt; rw [arrays_eq]; try rfl)
theorem before_1 (c : Dev nD) (t : Fin cfg0.N) (d) : (dats m 0 c).before 1 t d = blockAt m c 1 t :=
  ((dats m 0 c).before_in_eq_fetched 1 rfl (fun _ => rfl) (fun _ _ _ => rfl)
    (fun t => by rw [after_1]; unfold Dat.blockOf blockAt; rw [arrays_eq]; try rfl) t d).trans
    (by unfold Dat.fetched Dat.blockOf blockAt; rw [arrays_eq]; try rfl)
theorem before_2 (c : Dev nD) (t : Fin cfg0.N) (d) : (dats m 0 c).before 2 t d = blockAt m c 2 t :=
  ((dats m 0 c).before_in_eq_fetched 2 rfl (fun _ => rfl) (fun _ _ _ => rfl)
    (fun t => by rw [after_2]; unfold Dat.blockOf blockAt; rw [arrays_eq]; try rfl) t d).trans
    (by unfold Dat.fetched Dat.blockOf blockAt; rw [arrays_eq]; try rfl)
theorem before_3 (c : Dev nD) (t : Fin cfg0.N) (d) : (dats m 0 c).before 3 t d = blockAt m c 3 t :=
  ((dats m 0 c).before_in_eq_fetched 3 rfl (fun _ => rfl) (fun _ _ _ => rfl)
    (fun t => by rw [after_3]; unfold Dat.blockOf blockAt; rw [arrays_eq]; try rfl) t d).trans
    (by unfold Dat.fetched Dat.blockOf blockAt; rw [arrays_eq]; try rfl)
theorem before_4 (c : Dev nD) (t : Fin cfg0.N) (d) : (dats m 0 c).before 4 t d = blockAt m c 4 t :=
  ((dats m 0 c).before_in_eq_fetched 4 rfl (fun _ => rfl) (fun _ _ _ => rfl)
    (fun t => by rw [after_4]; unfold Dat.blockOf blockAt; rw [arrays_eq]; try rfl) t d).trans
    (by unfold Dat.fetched Dat.blockOf blockAt; rw [arrays_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ (grid0.coords t) _ _ _ _ _ _ _ _ _ _ _ _
    (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact body_at_point m c t

/-! ## The run and the frame -/

set_option backward.isDefEq.respectTransparency.types false in
/-- Every weakly fair execution of @main terminates; at the end each staged array holds what the library computes from
    the proof data (an input its entry contents, the output its row tiles `tileOut` written back one per point) and
    every other unscoped buffer what the last reshape leaves. -/
theorem run_main : θ_run defs (onTc (τ := τ) (main (F := F))) (s₀ m ρ)
    (Pipeline.FramePost cfgs (dats m) 0 (Pipeline.afterTail₀ cfgs (dats m) 0 (entryVal m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVal m) (opss := [hostOps1]) (hsub := tail_sub) (hfresh := tail_fresh) (hkeep := tail_keeps)
    (hmain := main_around m Variants.none) (hA := arrays_eq m) (hΦ := fun _ _ => rfl)

/-- The frame: @main runs to its end and the five argument arrays — none of them staged by the launch, none written
    by a host operation — hold at the end what they held at the start. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (exit_untouched m (dats m) c main_arg0 (by decide) (by decide) (by decide)),
     ((h c).2 main_arg1 (Pipeline.mem_restRefs_of main_arg1 (by decide) (by decide))).trans (exit_untouched m (dats m) c main_arg1 (by decide) (by decide) (by decide)),
     ((h c).2 main_arg2 (Pipeline.mem_restRefs_of main_arg2 (by decide) (by decide))).trans (exit_untouched m (dats m) c main_arg2 (by decide) (by decide) (by decide)),
     ((h c).2 main_arg3 (Pipeline.mem_restRefs_of main_arg3 (by decide) (by decide))).trans (exit_untouched m (dats m) c main_arg3 (by decide) (by decide) (by decide)),
     ((h c).2 main_arg4 (Pipeline.mem_restRefs_of main_arg4 (by decide) (by decide))).trans (exit_untouched m (dats m) c main_arg4 (by decide) (by decide) (by decide))⟩)
    (run_main m ρ)

end Cert.Kernel.Frame

end
-- ==== Proof.KernelIdealFrame.lean ====
/-
  The run of `KernelIdeal`'s @main, and from it the frame: every weakly fair execution terminates, faults nowhere, and
  leaves the five argument arrays as it found them.

  @main is nine straight stretches of host operations (four shifted crops of the image, each padded back to
  224 x 224, their concatenation along the channel axis, the cut into 16 x 16 patches, and the re-laid parameters),
  one launch of the layer-norm-and-projection kernel over a grid of 49 row tiles, and one last host reshape.
  The launch is read through the pipeline library: what the region finds in every buffer is the host stretches'
  composed result (`entryVal`); at grid point `t` the kernel body is handed row tile `t` of the patch matrix
  (256 rows of 3840 entries) and the four parameter blocks whole, and leaves in the output's staging buffer one
  value, a pure function of those five blocks (`tileOut`); that value is written back as row tile `t` of the
  result.  The body's separation-logic triple is obtained by symbolic execution of its six loads and one store.
  Written for any float instance `F`.
-/
import proofs.«145654_j27805618274639_2_alg».proof.Proof.Gen.KernelIdeal.Launch
import proofs.«145654_j27805618274639_2_alg».proof.Proof.Gen.KernelIdeal.Skeleton
import proofs.«145654_j27805618274639_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- The host stretches before the launch, in program order. -/
abbrev hostBefore : List (List (HloOp τ sig (Elt F))) :=
  [hostOps0, hostOps0_1, hostOps0_2, hostOps0_3, hostOps0_4, hostOps0_5, hostOps0_6, hostOps0_7, hostOps0_8]

/-- Every buffer of core `c` as the launch finds it: the launch contents `m` pushed through the host stretches. -/
abbrev entryVal (c : Dev nD) : Valuation τ sig (Elt F) := StableHlo.after (List.flatten (hostBefore (F := F))) (fun b => m (c, b))
/-- The same, read at a TensorCore reference. -/
abbrev entryAt (c : Dev nD) (b : Ref sig .tc) : Buf (Elt F) ((c : Thread nD τ).loc b) := entryVal m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the launch continued by the last reshape, every unscoped buffer then at `entryAt`. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main (hostBefore (F := F)) [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩)
    main_chain

/-- The reshape after the launch touches only unscoped TensorCore buffers, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the six arrays the launch stages (it writes the reshaped result only). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- A reference none of the host stretches writes is found by the launch as @main was started with it. -/
theorem entry_untouched (c : Dev nD) (r : Ref sig .tc)
    (hr : r ∉ [main_v0, main_c, main_call0_v0, main_v1, main_v2, main_c_0, main_call1_v0, main_v3, main_v4, main_c_1, main_call2_v0, main_v5,
      main_v6, main_c_2, main_call3_v0, main_v7, main_v8, main_v9, main_v10, main_v11, main_v12, main_v13, main_v14, main_v15, main_v16]) :
    entryAt m c r = m ((c : Thread nD τ).loc r) :=
  StableHlo.after_of_writes_sub (W := [main_v0, main_c, main_call0_v0, main_v1, main_v2, main_c_0, main_call1_v0, main_v3, main_v4, main_c_1, main_call2_v0, main_v5,
      main_v6, main_c_2, main_call3_v0, main_v7, main_v8, main_v9, main_v10, main_v11, main_v12, main_v13, main_v14, main_v15, main_v16]) _ _ (by
    simp only [hostBefore, hostOps0, hostOps0_1, hostOps0_2, hostOps0_3, hostOps0_4, hostOps0_5, hostOps0_6, hostOps0_7, hostOps0_8,
      List.flatten_cons, List.flatten_nil, List.append_nil, List.cons_append, List.nil_append, List.Forall,
      StableHlo.nullary_writes, StableHlo.unary_writes, StableHlo.binary_writes, StableHlo.reshape_writes, StableHlo.nary_writes]
    repeat' apply And.intro
    all_goals
      intro x hx
      rw [Finset.mem_singleton] at hx
      subst hx
      simp only [List.map_cons, List.toFinset_cons, Finset.mem_insert, true_or, or_true]) hr

/-- The reshape after the launch writes no argument array either: an argument ends as @main was started with it. -/
theorem exit_untouched (dats : (p : Fin _) → (c : Dev nD) → Dat τ (Elt F) Unit ℕ (UR sig nD τ) ℕ (cfgs p) c) (c : Dev nD) (r : Ref sig .tc)
    (h18 : r ≠ main_v18) (harr : ∀ w, Pipeline.arrRef spec0 w ≠ r)
    (hr : r ∉ [main_v0, main_c, main_call0_v0, main_v1, main_v2, main_c_0, main_call1_v0, main_v3, main_v4, main_c_1, main_call2_v0, main_v5,
      main_v6, main_c_2, main_call3_v0, main_v7, main_v8, main_v9, main_v10, main_v11, main_v12, main_v13, main_v14, main_v15, main_v16]) :
    Pipeline.afterTail₀ cfgs dats 0 (entryVal m) [hostOps1] c r = m ((c : Thread nD τ).loc r) := by
  unfold Pipeline.afterTail₀
  rw [StableHlo.after_of_forall_not_mem (b := Proc.devRef .tc r) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne h18)),
    Pipeline.withArrays_of_ne _ c (entryVal m c) _ r harr]
  exact entry_untouched m c r hr

/-! ## The windows' blocks -/

/-- Window `w`'s block at grid point `t`, read off its array as the launch finds it: for the patch matrix rows
    `256 t … 256 t + 255`, for each of the four parameter arrays the whole array. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-! ## The body -/

abbrev rectX : Rect S256x3840 := Rect.unit (s := S256x3840) ![0, 0] S256x3840.size inb_S256x3840_S256x3840_0_0
abbrev rectG : Rect S1x3840 := Rect.unit (s := S1x3840) ![0, 0] S1x3840.size inb_S1x3840_S1x3840_0_0
abbrev rectW : Rect S3840x768 := Rect.unit (s := S3840x768) ![0, 0] S3840x768.size inb_S3840x768_S3840x768_0_0
abbrev rectB : Rect S1x768 := Rect.unit (s := S1x768) ![0, 0] S1x768.size inb_S1x768_S1x768_0_0
abbrev rectO : Rect S256x768 := Rect.unit (s := S256x768) ![0, 0] S256x768.size inb_S256x768_S256x768_0_0

/-- What the body leaves in the output's staging buffer, from the five input blocks: its one store, which covers the
    buffer, of the body's arithmetic on the five whole-block loads. -/
def tileOut (x : Vec F S256x3840 .f32) (g : Vec F S1x3840 .f32) (be : Vec F S1x3840 .f32) (wt : Vec F S3840x768 .bf16) (bi : Vec F S1x768 .f32) :
    Vec F S256x768 .f32 :=
  View.canon [⟨rectO, k0_pay1 (View.ld x rectX) (View.ld g rectG) (View.ld be rectG) (View.ld wt rectW) (View.ld bi rectB)⟩]

/-- The one store covers the output block. -/
theorem store_covers (p0 : Vec F S256x768 .f32) (y : S256x768.Idx) :
    ∃ pc ∈ ([⟨rectO, p0⟩] : List (View.Piece (Elt F) S256x768 .f32)), y ∈ pc.1.set :=
  View.cover_of_tiled [⟨rectO, p0⟩] S256x768.size (by rfl) y

set_option maxHeartbeats 1000000 in
/-- The body on whole staging memrefs — the five inputs at contents `x g be wt bi`, the output at anything — runs to
    its end leaving the inputs as they were and the output at `tileOut` of them. -/
theorem body_triple (c : Dev nD) (E : Set ℕ) (i : grid0.Coords)
    (a1 : Memref sig .tc .vmem S256x3840 .f32) (h1 : a1.IsWhole) (a2 : Memref sig .tc .vmem S1x3840 .f32) (h2 : a2.IsWhole)
    (a3 : Memref sig .tc .vmem S1x3840 .f32) (h3 : a3.IsWhole) (a4 : Memref sig .tc .vmem S3840x768 .bf16) (h4 : a4.IsWhole)
    (a5 : Memref sig .tc .vmem S1x768 .f32) (h5 : a5.IsWhole) (a6 : Memref sig .tc .vmem S256x768 .f32) (h6 : a6.IsWhole)
    (x : Vec F S256x3840 .f32) (g : Vec F S1x3840 .f32) (be : Vec F S1x3840 .f32) (wt : Vec F S3840x768 .bf16) (bi : Vec F S1x768 .f32)
    (K : PUnit → sProp 𝕄) :
    iprop(owns (c : Thread nD τ) a1 fullShare x ∗ owns (c : Thread nD τ) a2 fullShare g ∗ owns (c : Thread nD τ) a3 fullShare be
        ∗ owns (c : Thread nD τ) a4 fullShare wt ∗ owns (c : Thread nD τ) a5 fullShare bi ∗ (∃ d, owns (c : Thread nD τ) a6 fullShare d)
        ∗ (iprop(owns (c : Thread nD τ) a1 fullShare x ∗ owns (c : Thread nD τ) a2 fullShare g ∗ owns (c : Thread nD τ) a3 fullShare be
            ∗ owns (c : Thread nD τ) a4 fullShare wt ∗ owns (c : Thread nD τ) a5 fullShare bi
            ∗ owns (c : Thread nD τ) a6 fullShare (tileOut x g be wt bi)) -∗ K ⟨⟩))
      ⊢ wp frame (wpE (defs₀ (F := F)) Variants.none c none) E (cc0__ln_dense_kernel i a1 h1 a2 h2 a3 h3 a4 h4 a5 h5 a6 h6) K := by
  simp only [cc0__ln_dense_kernel_eq_skeleton]; unfold cc0__ln_dense_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (store_covers _)

/-! ## The pipeline's proof data -/

/-- On core `c`: the arrays as the launch finds them; after the body at point `t` every input's buffer still at its
    block and the output's at `tileOut` of the five blocks; the kernel keeps nothing between points. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => tileOut (blockAt m c 0 t) (blockAt m c 1 t) (blockAt m c 2 t) (blockAt m c 3 t) (blockAt m c 4 t)
  Φ _ := Pipeline.ΦA spec0 c
  q _ := fullShare
  owed _ := 0

theorem arrays_eq (c : Dev nD) (w : Fin cfg0.W) : (dats m 0 c).A w = entryAt m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t
    = tileOut (blockAt m c 0 t) (blockAt m c 1 t) (blockAt m c 2 t) (blockAt m c 3 t) (blockAt m c 4 t) := by dsimp only [dats]

/-- An input's current staging buffer holds its block at every point: where it was fetched, by the fetch; where it
    was not, its block index has not moved since the fetch and the body left the block in place. -/
theorem before_0 (c : Dev nD) (t : Fin cfg0.N) (d) : (dats m 0 c).before 0 t d = blockAt m c 0 t :=
  ((dats m 0 c).before_in_eq_fetched 0 rfl (fun _ => rfl) (fun _ _ _ => rfl)
    (fun t => by rw [after_0]; unfold Dat.blockOf blockAt; rw [arrays_eq]; try rfl) t d).trans
    (by unfold Dat.fetched Dat.blockOf blockAt; rw [arrays_eq]; try rfl)
theorem before_1 (c : Dev nD) (t : Fin cfg0.N) (d) : (dats m 0 c).before 1 t d = blockAt m c 1 t :=
  ((dats m 0 c).before_in_eq_fetched 1 rfl (fun _ => rfl) (fun _ _ _ => rfl)
    (fun t => by rw [after_1]; unfold Dat.blockOf blockAt; rw [arrays_eq]; try rfl) t d).trans
    (by unfold Dat.fetched Dat.blockOf blockAt; rw [arrays_eq]; try rfl)
theorem before_2 (c : Dev nD) (t : Fin cfg0.N) (d) : (dats m 0 c).before 2 t d = blockAt m c 2 t :=
  ((dats m 0 c).before_in_eq_fetched 2 rfl (fun _ => rfl) (fun _ _ _ => rfl)
    (fun t => by rw [after_2]; unfold Dat.blockOf blockAt; rw [arrays_eq]; try rfl) t d).trans
    (by unfold Dat.fetched Dat.blockOf blockAt; rw [arrays_eq]; try rfl)
theorem before_3 (c : Dev nD) (t : Fin cfg0.N) (d) : (dats m 0 c).before 3 t d = blockAt m c 3 t :=
  ((dats m 0 c).before_in_eq_fetched 3 rfl (fun _ => rfl) (fun _ _ _ => rfl)
    (fun t => by rw [after_3]; unfold Dat.blockOf blockAt; rw [arrays_eq]; try rfl) t d).trans
    (by unfold Dat.fetched Dat.blockOf blockAt; rw [arrays_eq]; try rfl)
theorem before_4 (c : Dev nD) (t : Fin cfg0.N) (d) : (dats m 0 c).before 4 t d = blockAt m c 4 t :=
  ((dats m 0 c).before_in_eq_fetched 4 rfl (fun _ => rfl) (fun _ _ _ => rfl)
    (fun t => by rw [after_4]; unfold Dat.blockOf blockAt; rw [arrays_eq]; try rfl) t d).trans
    (by unfold Dat.fetched Dat.blockOf blockAt; rw [arrays_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ (grid0.coords t) _ _ _ _ _ _ _ _ _ _ _ _
    (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact body_at_point m c t

/-! ## The run and the frame -/

set_option backward.isDefEq.respectTransparency.types false in
/-- Every weakly fair execution of @main terminates; at the end each staged array holds what the library computes from
    the proof data (an input its entry contents, the output its row tiles `tileOut` written back one per point) and
    every other unscoped buffer what the last reshape leaves. -/
theorem run_main : θ_run defs (onTc (τ := τ) (main (F := F))) (s₀ m ρ)
    (Pipeline.FramePost cfgs (dats m) 0 (Pipeline.afterTail₀ cfgs (dats m) 0 (entryVal m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVal m) (opss := [hostOps1]) (hsub := tail_sub) (hfresh := tail_fresh) (hkeep := tail_keeps)
    (hmain := main_around m Variants.none) (hA := arrays_eq m) (hΦ := fun _ _ => rfl)

/-- The frame: @main runs to its end and the five argument arrays — none of them staged by the launch, none written
    by a host operation — hold at the end what they held at the start. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (exit_untouched m (dats m) c main_arg0 (by decide) (by decide) (by decide)),
     ((h c).2 main_arg1 (Pipeline.mem_restRefs_of main_arg1 (by decide) (by decide))).trans (exit_untouched m (dats m) c main_arg1 (by decide) (by decide) (by decide)),
     ((h c).2 main_arg2 (Pipeline.mem_restRefs_of main_arg2 (by decide) (by decide))).trans (exit_untouched m (dats m) c main_arg2 (by decide) (by decide) (by decide)),
     ((h c).2 main_arg3 (Pipeline.mem_restRefs_of main_arg3 (by decide) (by decide))).trans (exit_untouched m (dats m) c main_arg3 (by decide) (by decide) (by decide)),
     ((h c).2 main_arg4 (Pipeline.mem_restRefs_of main_arg4 (by decide) (by decide))).trans (exit_untouched m (dats m) c main_arg4 (by decide) (by decide) (by decide))⟩)
    (run_main m ρ)

end Cert.KernelIdeal.Frame

end
-- ==== Proof.Spec.lean ====
/-
  The mathematics both programs compute, stated once over the extended reals.

  A row `ρ` of 3840 entries is normalised — its mean `μ = (Σ ρ) / 3840`, its variance
  `σ² = (Σ (ρ − μ)²) / 3840`, each entry sent to `(ρ k − μ) · (σ² + ε)^(−1/2) · γ k + β k` — and the normalised
  row is projected to 768 entries, `(Σ_k normalised k · W k e) + b e`.  The rows are the 12544 patch vectors of a
  batch of 64 images: image `r / 196`, patch row `(r / 14) % 14`, patch column `r % 14`.
  The two literals are kept as their binary words: the same word stands on both sides and is never evaluated.
-/
import Idealize.ShloMosaic.PureOps.Ideal
import Idealize.ShloMosaic.Lib.ValueIdx

noncomputable section

namespace Cert.LayerNormDense

open Idealize.ShloMosaic Idealize.ShloMosaic.ValueIdx

/-- The divisor of both means, the f32 `3840.0`. -/
abbrev width : EReal := Ideal.ofBits .f32 0x45700000#32
/-- The variance's offset, the f32 nearest to `1e-6`. -/
abbrev eps : EReal := Ideal.ofBits .f32 0x358637BD#32

/-- The mean of a row. -/
def mean (ρ : Fin 3840 → EReal) : EReal := Ideal.div (∑ k : Fin 3840, ρ k) width
/-- The variance of a row: the mean of the squared deviations. -/
def variance (ρ : Fin 3840 → EReal) : EReal := Ideal.div (∑ k : Fin 3840, (ρ k - mean ρ) * (ρ k - mean ρ)) width
/-- The row normalised, scaled by `γ` and shifted by `β`. -/
def normalised (ρ γ β : Fin 3840 → EReal) (k : Fin 3840) : EReal :=
  (ρ k - mean ρ) * Ideal.rsqrt (variance ρ + eps) * γ k + β k
/-- The normalised row projected by `W`, plus the bias. -/
def projected (ρ γ β : Fin 3840 → EReal) (W : Fin 3840 → Fin 768 → EReal) (b : Fin 768 → EReal) (e : Fin 768) : EReal :=
  (∑ k : Fin 3840, normalised ρ γ β k * W k e) + b e

/-- Patch vector `r` of the patch tensor `X` (image, patch row, patch column, entry). -/
def patchRow (X : (⟨4, ![64, 14, 14, 3840]⟩ : Shape).Idx → EReal) (r : Fin 12544) (k : Fin 3840) : EReal :=
  X (ix4 (⟨r.val / 196, by have := r.isLt; omega⟩ : Fin 64) (⟨r.val / 14 % 14, by omega⟩ : Fin 14) (⟨r.val % 14, by omega⟩ : Fin 14) k)

/-- The tokens as a matrix, one row per patch vector. -/
def tokenRows (X : (⟨4, ![64, 14, 14, 3840]⟩ : Shape).Idx → EReal) (γ β : (⟨1, ![3840]⟩ : Shape).Idx → EReal)
    (W : (⟨2, ![3840, 768]⟩ : Shape).Idx → EReal) (b : (⟨1, ![768]⟩ : Shape).Idx → EReal) :
    (⟨2, ![12544, 768]⟩ : Shape).Idx → EReal := fun j =>
  projected (patchRow X (j 0)) (fun k => γ (ix1 k)) (fun k => β (ix1 k)) (fun k e => W (ix2 k e)) (fun e => b (ix1 e)) (j 1)

/-- Row `196 · image + patch` of the token matrix, as the (image, patch, entry) tensor both programs return. -/
def tokens (X : (⟨4, ![64, 14, 14, 3840]⟩ : Shape).Idx → EReal) (γ β : (⟨1, ![3840]⟩ : Shape).Idx → EReal)
    (W : (⟨2, ![3840, 768]⟩ : Shape).Idx → EReal) (b : (⟨1, ![768]⟩ : Shape).Idx → EReal) :
    (⟨3, ![64, 196, 768]⟩ : Shape).Idx → EReal := fun i =>
  tokenRows X γ β W b (ix2 (⟨(i 0).val * 196 + (i 1).val, by have h0 : (i 0).val < 64 := (i 0).isLt; have h1 : (i 1).val < 196 := (i 1).isLt; omega⟩ : Fin 12544) (i 2))

end Cert.LayerNormDense

end
-- ==== Proof.KernelIdealTile.lean ====
/-
  The kernel body's one stored value, read at an index, at the extended reals.

  Over the five loaded blocks — a tile `x` of 256 patch vectors, the scale `g` and shift `be` as 1 x 3840 rows, the
  weights `wt` as a 3840 x 768 matrix, the bias `bi` as a 1 x 768 row — entry `(p, e)` of the stored tile is the
  projection, at output entry `e`, of the normalised row `p` of `x`: the two lane sums are plain sums over the row,
  the column casts and broadcasts only re-address, the narrowing to bf16 is the identity, and the matrix product into
  a zero accumulator is the sum over the contracted axis.
-/
import proofs.«145654_j27805618274639_2_alg».proof.Proof.Gen.KernelIdeal.Skeleton
import proofs.«145654_j27805618274639_2_alg».proof.Proof.Spec
import Idealize.ShloMosaic.Lib.Pipeline.Value
import Idealize.ShloMosaic.Lib.ValueIdx
import Idealize.ShloMosaic.PureOps.Ideal.Laws

noncomputable section

namespace Cert.KernelIdeal.TileValue

open Idealize.ShloMosaic Idealize.ShloMosaic.ValueIdx Cert.KernelIdeal Cert.KernelIdeal.Gen Cert.LayerNormDense

variable {α : Type}

/-! ## The re-addressing operations at an index -/

/-- A vector of 256 entries cast to a column: entry `(p, 0)` is entry `p`. -/
theorem column_of (v : S256.Idx → α) (h : S256.ShapeCasts S256x1) (p : Fin 256) (q : Fin 1) :
    shapeCast S256x1 v h (ix2 p q) = v (ix1 p) :=
  shapeCast_apply v h (ix2 p q) (ix1 p) (by
    rw [Shape.rowMajor_val_one, Shape.rowMajor_val_two]
    show p.val = p.val * 1 + q.val
    have := q.isLt; omega)

/-- A column broadcast along the rows' entries: entry `(p, k)` is the column's entry `(p, 0)`. -/
theorem spread_column (v : S256x1.Idx → α) (h : S256x1.Broadcasts S256x3840) (p : Fin 256) (k : Fin 3840) :
    broadcastTo S256x3840 v h (ix2 p k) = v (ix2 p (0 : Fin 1)) :=
  broadcastTo_apply v h (ix2 p k) (ix2 p (0 : Fin 1)) (fun a => by
    match a with
    | ⟨0, _⟩ => show p.val = if (256 : Nat) = 1 then 0 else p.val; rw [if_neg (by decide)]
    | ⟨1, _⟩ => show (0 : Nat) = if (1 : Nat) = 1 then 0 else k.val; rw [if_pos rfl])

/-- A row of 3840 entries broadcast down the 256 rows: entry `(p, k)` is the row's entry `(0, k)`. -/
theorem spread_row (v : S1x3840.Idx → α) (h : S1x3840.Broadcasts S256x3840) (p : Fin 256) (k : Fin 3840) :
    broadcastTo S256x3840 v h (ix2 p k) = v (ix2 (0 : Fin 1) k) :=
  broadcastTo_apply v h (ix2 p k) (ix2 (0 : Fin 1) k) (fun a => by
    match a with
    | ⟨0, _⟩ => show (0 : Nat) = if (1 : Nat) = 1 then 0 else p.val; rw [if_pos rfl]
    | ⟨1, _⟩ => show k.val = if (3840 : Nat) = 1 then 0 else k.val; rw [if_neg (by decide)])

/-- The bias row broadcast down the 256 rows. -/
theorem spread_bias (v : S1x768.Idx → α) (h : S1x768.Broadcasts S256x768) (p : Fin 256) (e : Fin 768) :
    broadcastTo S256x768 v h (ix2 p e) = v (ix2 (0 : Fin 1) e) :=
  broadcastTo_apply v h (ix2 p e) (ix2 (0 : Fin 1) e) (fun a => by
    match a with
    | ⟨0, _⟩ => show (0 : Nat) = if (1 : Nat) = 1 then 0 else p.val; rw [if_pos rfl]
    | ⟨1, _⟩ => show e.val = if (768 : Nat) = 1 then 0 else e.val; rw [if_neg (by decide)])

/-! ## The two reductions at an index -/

/-- The sum along a row of the tile: at row `p`, the sum over the row's 3840 entries. -/
theorem row_sum (src : FVec Ideal S256x3840 .f32) (h : S256x3840.Reduces [1] S256) (hφ : FKind.Formats .f32)
    (hacc : (0x00000000#32 : BitVec 32) = 0x00000000#32) (p : Fin 256) :
    multiReduction (F := Ideal) .add [1] S256 src 0x00000000#32 h hφ hacc (ix1 p) = ∑ k : Fin 3840, src (ix2 p k) := by
  refine (Ideal.multiReduction_add_single src 0x00000000#32 h hφ hacc (ix1 p)).trans ?_
  refine Finset.sum_congr rfl fun k _ => congrArg src ?_
  funext a; apply Fin.ext
  match a with
  | ⟨0, _⟩ => rfl
  | ⟨1, _⟩ => rfl

/-- The matrix product into the zero accumulator: entry `(p, e)` is the sum over the 3840 contracted entries of the
    left operand's row `p` times the right operand's column `e`. -/
theorem product_at (l : FVec Ideal S256x3840 .bf16) (r : FVec Ideal S3840x768 .bf16) (p : Fin 256) (e : Fin 768) :
    matmul (F := Ideal) dot_S256x3840_S3840x768_S256x768_1_0_0_1_n_n none l r (constant (F := Ideal) S256x768 .f32 0x00000000#32) (ix2 p e)
      = ∑ k : Fin 3840, l (ix2 p k) * r (ix2 k e) := by
  refine (Ideal.matmul_constant_zero_apply dot_S256x3840_S3840x768_S256x768_1_0_0_1_n_n none l r (ix2 p e)).trans ?_
  rw [← Equiv.sum_comp (ValueIdx.contrEquiv1 dot_S256x3840_S3840x768_S256x768_1_0_0_1_n_n 3840 rfl rfl).symm]
  refine Finset.sum_congr rfl fun k _ => ?_
  have hk := ValueIdx.contrEquiv1_symm_val dot_S256x3840_S3840x768_S256x768_1_0_0_1_n_n 3840 rfl rfl k
  have el : dot_S256x3840_S3840x768_S256x768_1_0_0_1_n_n.lhsIdx (ix2 p e) ((ValueIdx.contrEquiv1 dot_S256x3840_S3840x768_S256x768_1_0_0_1_n_n 3840 rfl rfl).symm k) = ix2 p k := funext fun a => Fin.ext (by
    match a with
    | ⟨0, _⟩ =>
      show (dot_S256x3840_S3840x768_S256x768_1_0_0_1_n_n.lhsIdx (ix2 p e) _ 0).val = p.val
      unfold DotDims.lhsIdx
      rw [dif_neg (show ¬(0 : Fin S256x3840.rank) ∈ dot_S256x3840_S3840x768_S256x768_1_0_0_1_n_n.lhsBatch by decide), dif_pos (show (0 : Fin S256x3840.rank) ∈ dot_S256x3840_S3840x768_S256x768_1_0_0_1_n_n.lhsNonContracting by decide)]
      rfl
    | ⟨1, _⟩ => exact (dot_S256x3840_S3840x768_S256x768_1_0_0_1_n_n.lhsIdx_val_of_single rfl (ix2 p e) _).trans hk)
  have er : dot_S256x3840_S3840x768_S256x768_1_0_0_1_n_n.rhsIdx (ix2 p e) ((ValueIdx.contrEquiv1 dot_S256x3840_S3840x768_S256x768_1_0_0_1_n_n 3840 rfl rfl).symm k) = ix2 k e := funext fun a => Fin.ext (by
    match a with
    | ⟨0, _⟩ => exact (dot_S256x3840_S3840x768_S256x768_1_0_0_1_n_n.rhsIdx_val_of_single rfl (ix2 p e) _).trans hk
    | ⟨1, _⟩ =>
      show (dot_S256x3840_S3840x768_S256x768_1_0_0_1_n_n.rhsIdx (ix2 p e) _ 1).val = e.val
      unfold DotDims.rhsIdx
      rw [dif_neg (show ¬(1 : Fin S3840x768.rank) ∈ dot_S256x3840_S3840x768_S256x768_1_0_0_1_n_n.rhsBatch by decide), dif_pos (show (1 : Fin S3840x768.rank) ∈ dot_S256x3840_S3840x768_S256x768_1_0_0_1_n_n.rhsNonContracting by decide)]
      rfl)
  rw [el, er]

/-! ## The stored tile at an index -/

/-- Entry `(p, e)` of the stored tile is the projection at `e` of the normalised row `p` of the patch tile. -/
theorem tile_at (x : FVec Ideal S256x3840 .f32) (g be : FVec Ideal S1x3840 .f32) (wt : FVec Ideal S3840x768 .bf16) (bi : FVec Ideal S1x768 .f32)
    (p : Fin 256) (e : Fin 768) :
    k0_pay1 (F := Ideal) x g be wt bi (ix2 p e)
      = projected (fun k => x (ix2 p k)) (fun k => g (ix2 (0 : Fin 1) k)) (fun k => be (ix2 (0 : Fin 1) k))
          (fun k e' => wt (ix2 k e')) (fun e' => bi (ix2 (0 : Fin 1) e')) e := by
  unfold k0_pay1
  simp only [shapeCast_self, addf_apply, mulf_apply, subf_apply, divf_apply, truncf_apply, broadcast_apply, rsqrt,
    spread_bias, spread_row, spread_column, column_of, product_at]
  rw [row_sum, row_sum]
  simp only [mulf_apply, subf_apply, divf_apply, broadcast_apply, spread_column, column_of]
  rw [row_sum]
  rfl

end Cert.KernelIdeal.TileValue

end
-- ==== Proof.KernelIdealValue.lean ====
/-
  What the idealized kernel's two results hold at the end of its run, as functions of the argument arrays.

  The launch finds the patch tensor (the host stretches' composed result, the same composition the reference applies
  to the image), that tensor flattened to 12544 rows as the kernel's first operand, and the four parameters re-laid
  as rows and a matrix.  At grid point `t` the body's stored tile is, entry by entry, the specification's token matrix
  on rows `256 t … 256 t + 255`; the 49 tiles cover the matrix; the last host reshape reads the matrix as the
  (image, patch, entry) tensor.
-/
import proofs.«145654_j27805618274639_2_alg».proof.Proof.KernelIdealFrame
import proofs.«145654_j27805618274639_2_alg».proof.Proof.KernelIdealTile
import proofs.«145654_j27805618274639_2_alg».proof.Proof.Gen.ReferenceIdeal.Read
import Idealize.ShloMosaic.Lib.StableHlo.Run
import Idealize.ShloMosaic.Lib.Pipeline.Value

set_option maxRecDepth 16384

noncomputable section

namespace Cert.KernelIdeal.TokensValue

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Frame Cert.KernelIdeal.TileValue Cert.LayerNormDense

variable (m : (ℓ : Loc nD τ sig) → Buf (Elt Ideal) ℓ) (ρ : Dev nD → PrngReg)

/-! ## The arguments, and the patch tensor -/

abbrev image (c : Dev nD) : S64x224x224x3.Idx → EReal := m ((c.tc : Thread nD τ).loc main_arg0)
abbrev scale (c : Dev nD) : S3840.Idx → EReal := m ((c.tc : Thread nD τ).loc main_arg1)
abbrev shift (c : Dev nD) : S3840.Idx → EReal := m ((c.tc : Thread nD τ).loc main_arg2)
abbrev weights (c : Dev nD) : S3840x768.Idx → EReal := m ((c.tc : Thread nD τ).loc main_arg3)
abbrev bias (c : Dev nD) : S768.Idx → EReal := m ((c.tc : Thread nD τ).loc main_arg4)

/-- The patch tensor of the image: the four shifted crops padded back and joined to the image along the channel
    axis, cut into 16 x 16 patches — the composition both programs apply, named by the reference's stage. -/
abbrev patchTensor (c : Dev nD) : S64x14x14x3840.Idx → EReal :=
  Cert.ReferenceIdeal.Read.val_main_v11 (F := Ideal) (image m c)

/-- The token matrix the kernel's result array ends holding. -/
abbrev tokenMatrix (c : Dev nD) : S12544x768.Idx → EReal :=
  tokenRows (patchTensor m c) (scale m c) (shift m c) (weights m c) (bias m c)

/-! ## What the launch finds -/

theorem entry_patches (c : Dev nD) : (entryAt m c main_v11 : S64x14x14x3840.Idx → EReal) = patchTensor m c := by
  dsimp only [entryAt, entryVal]
  simp only [hostBefore, hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

theorem entry_flat (c : Dev nD) : (entryAt m c (Pipeline.arrRef spec0 0) : S12544x3840.Idx → EReal)
    = shapeCast S12544x3840 (patchTensor m c) shapeCasts_S64x14x14x3840_S12544x3840 := by
  dsimp only [entryAt, entryVal]
  simp only [hostBefore, hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

theorem entry_scale (c : Dev nD) : (entryAt m c (Pipeline.arrRef spec0 1) : S1x3840.Idx → EReal)
    = shapeCast S1x3840 (scale m c) shapeCasts_S3840_S1x3840 := by
  dsimp only [entryAt, entryVal]
  simp only [hostBefore, hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

theorem entry_shift (c : Dev nD) : (entryAt m c (Pipeline.arrRef spec0 2) : S1x3840.Idx → EReal)
    = shapeCast S1x3840 (shift m c) shapeCasts_S3840_S1x3840 := by
  dsimp only [entryAt, entryVal]
  simp only [hostBefore, hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

theorem entry_weights (c : Dev nD) : (entryAt m c (Pipeline.arrRef spec0 3) : S3840x768.Idx → EReal) = weights m c := by
  dsimp only [entryAt, entryVal]
  simp only [hostBefore, hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

theorem entry_bias (c : Dev nD) : (entryAt m c (Pipeline.arrRef spec0 4) : S1x768.Idx → EReal)
    = shapeCast S1x768 (bias m c) shapeCasts_S768_S1x768 := by
  dsimp only [entryAt, entryVal]
  simp only [hostBefore, hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

/-! ## The blocks at a grid point -/

/-- The printed index maps over the grid: the patch tiles and the result tiles move with the point along the rows,
    the four parameter blocks stay at the origin. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The row of the token matrix that tile `t`'s row `p` is. -/
abbrev rowAt (t : Fin cfg0.N) (p : Fin 256) : Fin 12544 :=
  ⟨t.val * 256 + p.val, by have ht : t.val < 49 := t.isLt; have := p.isLt; omega⟩

/-! Reading a block of an array through its window, for ANY contents of the array: the block's index plus the
    coordinate inside the block. -/

theorem read_patch_tile (A : S12544x3840.Idx → EReal) (t : Fin cfg0.N) (p : Fin 256) (k : Fin 3840) :
    ((cfg0.win 0).blk t).view.read (Elt Ideal) A (ix2 p k) = A (ix2 (rowAt t p) k) := by
  obtain ⟨e0, e1, -⟩ := index_maps t
  show A (((cfg0.win 0).blk t).view.emb (ix2 p k)) = _
  refine congrArg A ?_
  funext a; apply Fin.ext
  match a with
  | ⟨0, _⟩ => show win0_0.index t (0 : Fin 2) * 256 + 1 * p.val = t.val * 256 + p.val; rw [e0]; omega
  | ⟨1, _⟩ => show win0_0.index t (1 : Fin 2) * 3840 + 1 * k.val = k.val; rw [e1]; omega

theorem read_scale_row (A : S1x3840.Idx → EReal) (t : Fin cfg0.N) (k : Fin 3840) :
    ((cfg0.win 1).blk t).view.read (Elt Ideal) A (ix2 (0 : Fin 1) k) = A (ix2 (0 : Fin 1) k) := by
  obtain ⟨-, -, e0, e1, -⟩ := index_maps t
  show A (((cfg0.win 1).blk t).view.emb (ix2 (0 : Fin 1) k)) = _
  refine congrArg A ?_
  funext a; apply Fin.ext
  match a with
  | ⟨0, _⟩ => show win0_1.index t (0 : Fin 2) * 1 + 1 * 0 = 0; rw [e0]
  | ⟨1, _⟩ => show win0_1.index t (1 : Fin 2) * 3840 + 1 * k.val = k.val; rw [e1]; omega

theorem read_shift_row (A : S1x3840.Idx → EReal) (t : Fin cfg0.N) (k : Fin 3840) :
    ((cfg0.win 2).blk t).view.read (Elt Ideal) A (ix2 (0 : Fin 1) k) = A (ix2 (0 : Fin 1) k) := by
  obtain ⟨-, -, -, -, e0, e1, -⟩ := index_maps t
  show A (((cfg0.win 2).blk t).view.emb (ix2 (0 : Fin 1) k)) = _
  refine congrArg A ?_
  funext a; apply Fin.ext
  match a with
  | ⟨0, _⟩ => show win0_2.index t (0 : Fin 2) * 1 + 1 * 0 = 0; rw [e0]
  | ⟨1, _⟩ => show win0_2.index t (1 : Fin 2) * 3840 + 1 * k.val = k.val; rw [e1]; omega

theorem read_weights (A : S3840x768.Idx → EReal) (t : Fin cfg0.N) (k : Fin 3840) (e : Fin 768) :
    ((cfg0.win 3).blk t).view.read (Elt Ideal) A (ix2 k e) = A (ix2 k e) := by
  obtain ⟨-, -, -, -, -, -, e0, e1, -⟩ := index_maps t
  show A (((cfg0.win 3).blk t).view.emb (ix2 k e)) = _
  refine congrArg A ?_
  funext a; apply Fin.ext
  match a with
  | ⟨0, _⟩ => show win0_3.index t (0 : Fin 2) * 3840 + 1 * k.val = k.val; rw [e0]; omega
  | ⟨1, _⟩ => show win0_3.index t (1 : Fin 2) * 768 + 1 * e.val = e.val; rw [e1]; omega

theorem read_bias_row (A : S1x768.Idx → EReal) (t : Fin cfg0.N) (e : Fin 768) :
    ((cfg0.win 4).blk t).view.read (Elt Ideal) A (ix2 (0 : Fin 1) e) = A (ix2 (0 : Fin 1) e) := by
  obtain ⟨-, -, -, -, -, -, -, -, e0, e1, -⟩ := index_maps t
  show A (((cfg0.win 4).blk t).view.emb (ix2 (0 : Fin 1) e)) = _
  refine congrArg A ?_
  funext a; apply Fin.ext
  match a with
  | ⟨0, _⟩ => show win0_4.index t (0 : Fin 2) * 1 + 1 * 0 = 0; rw [e0]
  | ⟨1, _⟩ => show win0_4.index t (1 : Fin 2) * 768 + 1 * e.val = e.val; rw [e1]; omega

theorem read_result_tile (A : S12544x768.Idx → EReal) (t : Fin cfg0.N) (p : Fin 256) (e : Fin 768) :
    ((cfg0.win 5).blk t).view.read (Elt Ideal) A (ix2 p e) = A (ix2 (rowAt t p) e) := by
  obtain ⟨-, -, -, -, -, -, -, -, -, -, e0, e1⟩ := index_maps t
  show A (((cfg0.win 5).blk t).view.emb (ix2 p e)) = _
  refine congrArg A ?_
  funext a; apply Fin.ext
  match a with
  | ⟨0, _⟩ => show win0_5.index t (0 : Fin 2) * 256 + 1 * p.val = t.val * 256 + p.val; rw [e0]; omega
  | ⟨1, _⟩ => show win0_5.index t (1 : Fin 2) * 768 + 1 * e.val = e.val; rw [e1]; omega

/-- The result window is uncut: what a write-back moves is the whole staged tile. -/
theorem whole_tile_moved {α : Type} (P : S256x768.Idx → α) (t : Fin cfg0.N) : (cfg0.win 5).cut (grid0.coords t) P = P := by
  funext j; exact congrArg P (funext fun a => Fin.ext rfl)

/-! The five blocks at a point, entry by entry, from the arguments. -/

/-- Row `p` of patch tile `t` is patch vector `256 t + p`. -/
theorem tile_row (c : Dev nD) (t : Fin cfg0.N) (p : Fin 256) (k : Fin 3840) :
    blockAt m c 0 t (ix2 p k) = patchRow (patchTensor m c) (rowAt t p) k := by
  have ht : t.val < 49 := t.isLt
  have hp := p.isLt; have hk := k.isLt
  unfold blockAt
  rw [entry_flat, read_patch_tile]
  unfold patchRow
  refine shapeCast_apply _ _ _ _ ?_
  rw [Shape.rowMajor_val_four, Shape.rowMajor_val_two]
  show (((t.val * 256 + p.val) / 196 * 14 + (t.val * 256 + p.val) / 14 % 14) * 14 + (t.val * 256 + p.val) % 14) * 3840 + k.val
    = (t.val * 256 + p.val) * 3840 + k.val
  omega

/-- The scale block at any point is the scale argument as a row. -/
theorem scale_block (c : Dev nD) (t : Fin cfg0.N) (k : Fin 3840) :
    blockAt m c 1 t (ix2 (0 : Fin 1) k) = scale m c (ix1 k) := by
  have hk := k.isLt
  unfold blockAt
  rw [entry_scale, read_scale_row]
  refine shapeCast_apply _ _ _ _ ?_
  rw [Shape.rowMajor_val_one, Shape.rowMajor_val_two]
  show k.val = 0 * 3840 + k.val
  omega

/-- The shift block likewise. -/
theorem shift_block (c : Dev nD) (t : Fin cfg0.N) (k : Fin 3840) :
    blockAt m c 2 t (ix2 (0 : Fin 1) k) = shift m c (ix1 k) := by
  have hk := k.isLt
  unfold blockAt
  rw [entry_shift, read_shift_row]
  refine shapeCast_apply _ _ _ _ ?_
  rw [Shape.rowMajor_val_one, Shape.rowMajor_val_two]
  show k.val = 0 * 3840 + k.val
  omega

/-- The weight block is the weight argument (its narrowing to bf16 is the identity on the extended reals). -/
theorem weight_block (c : Dev nD) (t : Fin cfg0.N) (k : Fin 3840) (e : Fin 768) :
    blockAt m c 3 t (ix2 k e) = weights m c (ix2 k e) := by
  unfold blockAt
  rw [entry_weights, read_weights]

/-- The bias block is the bias argument as a row. -/
theorem bias_block (c : Dev nD) (t : Fin cfg0.N) (e : Fin 768) :
    blockAt m c 4 t (ix2 (0 : Fin 1) e) = bias m c (ix1 e) := by
  have he := e.isLt
  unfold blockAt
  rw [entry_bias, read_bias_row]
  refine shapeCast_apply _ _ _ _ ?_
  rw [Shape.rowMajor_val_one, Shape.rowMajor_val_two]
  show e.val = 0 * 768 + e.val
  omega

/-! ## From tiles to the matrix -/

theorem origin : (![0, 0] : Fin 2 → Nat) = fun _ => 0 := funext fun a => by fin_cases a <;> rfl

/-- The projection depends on its five operands only through their values. -/
theorem projected_congr {ρ ρ' γ γ' β β' : Fin 3840 → EReal} {W W' : Fin 3840 → Fin 768 → EReal} {b b' : Fin 768 → EReal}
    (hρ : ρ = ρ') (hγ : γ = γ') (hβ : β = β') (hW : W = W') (hb : b = b') (e : Fin 768) :
    projected ρ γ β W b e = projected ρ' γ' β' W' b' e := by
  subst hρ; subst hγ; subst hβ; subst hW; subst hb; rfl

/-- What point `t` writes back is tile `t` of the token matrix. -/
theorem written_tile (c : Dev nD) (t : Fin cfg0.N) :
    (dats m 0 c).flushed 5 t = ((cfg0.win 5).blk t).view.read (Elt Ideal) (tokenMatrix m c) := by
  show (cfg0.win 5).cut (grid0.coords t) ((dats m 0 c).after 5 t) = _
  rw [after_5]
  unfold tileOut
  rw [View.canon_unit_zero origin]
  simp only [View.ld_unit_zero (S := S256x3840) origin, View.ld_unit_zero (S := S1x3840) origin,
    View.ld_unit_zero (S := S3840x768) origin, View.ld_unit_zero (S := S1x768) origin]
  rw [whole_tile_moved]
  funext y
  obtain ⟨p, e, rfl⟩ : ∃ (p : Fin 256) (e : Fin 768), y = ix2 p e := ⟨y 0, y 1, eq_ix2 y⟩
  rw [read_result_tile]
  refine (tile_at (blockAt m c 0 t) (blockAt m c 1 t) (blockAt m c 2 t) (blockAt m c 3 t) (blockAt m c 4 t) p e).trans ?_
  exact projected_congr (funext fun k => tile_row m c t p k) (funext fun k => scale_block m c t k)
    (funext fun k => shift_block m c t k) (funext fun k => funext fun e' => weight_block m c t k e')
    (funext fun e' => bias_block m c t e') e

/-- An index of the matrix is in tile `t` iff its row is among the tile's 256 rows. -/
theorem mem_tile (t : Fin cfg0.N) (i : S12544x768.Idx) :
    i ∈ ((cfg0.win 5).blk t).view.set ↔ ∀ a : Fin 2, win0_5.index t a * S256x768.size a ≤ (i a).val ∧ (i a).val < win0_5.index t a * S256x768.size a + S256x768.size a := by
  show i ∈ ((View.whole main_v17).slice (win0_5.rect t)).set ↔ _
  rw [View.set_slice_whole, Rect.mem_set_unit]
  exact Iff.rfl

/-- The 49 tiles cover the matrix: row `r` lies in tile `r / 256`. -/
theorem tiles_cover (i : S12544x768.Idx) :
    ∃ t : Fin cfg0.N, (cfg0.win 5).flush t = true ∧ i ∈ ((cfg0.win 5).blk t).view.set := by
  have h0 : (i 0).val < 12544 := (i 0).isLt
  have h1 : (i 1).val < 768 := (i 1).isLt
  let t : Fin cfg0.N := ⟨(i 0).val / 256, by show (i 0).val / 256 < 49; omega⟩
  have htv : t.val = (i 0).val / 256 := rfl
  obtain ⟨-, -, -, -, -, -, -, -, -, -, e0, e1⟩ := index_maps t
  refine ⟨t, flush0_5 t, ?_⟩
  rw [mem_tile]
  intro a
  match a with
  | ⟨0, _⟩ => show win0_5.index t (0 : Fin 2) * 256 ≤ (i 0).val ∧ (i 0).val < win0_5.index t (0 : Fin 2) * 256 + 256; rw [e0, htv]; omega
  | ⟨1, _⟩ => show win0_5.index t (1 : Fin 2) * 768 ≤ (i 1).val ∧ (i 1).val < win0_5.index t (1 : Fin 2) * 768 + 768; rw [e1]; omega

/-- The result array after the run is the token matrix. -/
theorem final_matrix (c : Dev nD) : (dats m 0 c).arrAt 5 cfg0.N = tokenMatrix m c :=
  (dats m 0 c).arrAt_eq_of_cover 5 (tokenMatrix m c) (fun t _ => written_tile m c t) tiles_cover

/-! ## The two results -/

/-- The last reshape reads the token matrix as the (image, patch, entry) tensor. -/
theorem tokens_result (c : Dev nD) :
    (Pipeline.afterTail₀ cfgs (dats m) 0 (entryVal m) [hostOps1] c main_v18 : S64x196x768.Idx → EReal)
      = tokens (patchTensor m c) (scale m c) (shift m c) (weights m c) (bias m c) := by
  unfold Pipeline.afterTail₀
  show StableHlo.after hostOps1 _ (Proc.devRef .tc main_v18) = _
  after_results
  rw [Pipeline.withArrays_arr spec0 launch0.win.arr_inj c _ _ 5, final_matrix]
  funext (i : S64x196x768.Idx)
  have h0 : (i 0).val < 64 := (i 0).isLt
  have h1 : (i 1).val < 196 := (i 1).isLt
  unfold tokens
  refine shapeCast_apply (tokenMatrix m c) shapeCasts_S12544x768_S64x196x768 i _ ?_
  show (S12544x768.rowMajor (ix2 _ (i 2))).val = (S64x196x768.rowMajor i).val
  rw [Shape.rowMajor_val_two, Shape.rowMajor_val_three]
  show ((i 0).val * 196 + (i 1).val) * 768 + (i 2).val = ((i 0).val * 196 + (i 1).val) * 768 + (i 2).val
  rfl

/-- The patch tensor is left as the host stretches wrote it. -/
theorem patches_result (c : Dev nD) :
    (Pipeline.afterTail₀ cfgs (dats m) 0 (entryVal m) [hostOps1] c main_v11 : S64x14x14x3840.Idx → EReal) = patchTensor m c := by
  unfold Pipeline.afterTail₀
  rw [StableHlo.after_of_forall_not_mem (b := Proc.devRef .tc main_v11) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entryVal m c) _ main_v11 (by decide)]
  exact entry_patches m c

/-! ## The run, read -/

/-- Every weakly fair execution of the idealized kernel's @main terminates with the tokens at the specification's
    `tokens` of the patch tensor and the parameters, the patch tensor at the composition of the image, and the
    arguments unchanged. -/
theorem run : θ_run defs (onTc (τ := τ) (main (F := Ideal))) ⟨m, fun _ => 0, ρ⟩ (fun r => ∀ c : Dev nD,
      r.2.mem ((c.tc : Thread nD τ).loc main_v18) = tokens (patchTensor m c) (scale m c) (shift m c) (weights m c) (bias m c)
      ∧ r.2.mem ((c.tc : Thread nD τ).loc main_v11) = patchTensor m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v18 (Pipeline.mem_restRefs_of main_v18 (by decide) (by decide))).trans (tokens_result m c),
     ((h c).2 main_v11 (Pipeline.mem_restRefs_of main_v11 (by decide) (by decide))).trans (patches_result m c),
     ((h c).2 main_arg0 (Pipeline.mem_restRefs_of main_arg0 (by decide) (by decide))).trans (exit_untouched m (dats m) c main_arg0 (by decide) (by decide) (by decide)),
     ((h c).2 main_arg1 (Pipeline.mem_restRefs_of main_arg1 (by decide) (by decide))).trans (exit_untouched m (dats m) c main_arg1 (by decide) (by decide) (by decide)),
     ((h c).2 main_arg2 (Pipeline.mem_restRefs_of main_arg2 (by decide) (by decide))).trans (exit_untouched m (dats m) c main_arg2 (by decide) (by decide) (by decide)),
     ((h c).2 main_arg3 (Pipeline.mem_restRefs_of main_arg3 (by decide) (by decide))).trans (exit_untouched m (dats m) c main_arg3 (by decide) (by decide) (by decide)),
     ((h c).2 main_arg4 (Pipeline.mem_restRefs_of main_arg4 (by decide) (by decide))).trans (exit_untouched m (dats m) c main_arg4 (by decide) (by decide) (by decide))⟩)
    (run_main (F := Ideal) m ρ)

end Cert.KernelIdeal.TokensValue

end
-- ==== Proof.RefValue.lean ====
/-
  The reference's tokens, read one host operation at a time, are the specification's `tokens` of the patch tensor.

  At (image, patch, entry) every stage reads the stage before it at a re-addressed index: the flattened patch tensor at
  (image, patch, k) is patch vector `196 · image + patch` at `k`; the two host sums start from the zero word, which
  adds nothing; the keep-dimension broadcasts re-address a column; the host's quotient and reciprocal square root
  are the kernel's; the host's contraction is the plain sum over the 3840 contracted entries.
-/
import proofs.«145654_j27805618274639_2_alg».proof.Proof.Gen.ReferenceIdeal.Read
import proofs.«145654_j27805618274639_2_alg».proof.Proof.Spec

noncomputable section

namespace Cert.ReferenceIdeal.RefValue

open Idealize.ShloMosaic Idealize.ShloMosaic.ValueIdx Cert.ReferenceIdeal Cert.ReferenceIdeal.Gen Cert.ReferenceIdeal.Read Cert.LayerNormDense

variable (x0 : (⟨S64x224x224x3, .f32⟩ : BufTy).Contents (Elt Ideal))

/-- The number of patch vector (image, patch) among the 12544. -/
abbrev rowOf (bi : Fin 64) (n : Fin 196) : Fin 12544 := ⟨bi.val * 196 + n.val, by have := bi.isLt; have := n.isLt; omega⟩

/-- The patch vector of (image, patch), read off the reference's patch tensor. -/
abbrev vecOf (bi : Fin 64) (n : Fin 196) : Fin 3840 → EReal := patchRow (val_main_v11 (F := Ideal) x0) (rowOf bi n)

/-- The flattened patch tensor at (image, patch, k). -/
theorem flat_at (bi : Fin 64) (n : Fin 196) (k : Fin 3840) :
    val_main_v12 (F := Ideal) x0 (ix3 bi n k) = vecOf x0 bi n k := by
  rw [val_main_v12_apply]
  show _ = patchRow (val_main_v11 (F := Ideal) x0) (rowOf bi n) k
  unfold patchRow
  refine congrArg (val_main_v11 (F := Ideal) x0) ?_
  have hb := bi.isLt; have hn := n.isLt; have hk := k.isLt
  funext a; apply Fin.ext
  match a with
  | ⟨0, _⟩ => show ((bi.val * 196 + n.val) * 3840 + k.val) / 752640 = (bi.val * 196 + n.val) / 196; omega
  | ⟨1, _⟩ => show ((bi.val * 196 + n.val) * 3840 + k.val) / 53760 % 14 = (bi.val * 196 + n.val) / 14 % 14; omega
  | ⟨2, _⟩ => show ((bi.val * 196 + n.val) * 3840 + k.val) / 3840 % 14 = (bi.val * 196 + n.val) % 14; omega
  | ⟨3, _⟩ => show ((bi.val * 196 + n.val) * 3840 + k.val) % 3840 = k.val; omega

/-- The first host sum at (image, patch): the sum of the patch vector. -/
theorem total_at (bi : Fin 64) (n : Fin 196) :
    val_main_v13 (F := Ideal) x0 (ix2 bi n) = ∑ k : Fin 3840, vecOf x0 bi n k := by
  rw [val_main_v13_apply, val_main_cst_apply]
  show Ideal.ofBits .f32 0x00000000#32 + _ = _
  rw [Ideal.ofBits_zero_f32, zero_add]
  refine Finset.sum_congr rfl fun k _ => ?_
  rw [show idx_main_v13 (ix2 bi n) k = ix3 bi n k from funext fun a => Fin.ext (by
    match a with | ⟨0, _⟩ => rfl | ⟨1, _⟩ => rfl | ⟨2, _⟩ => rfl)]
  exact flat_at x0 bi n k

/-- The mean column at (image, patch). -/
theorem mean_at (bi : Fin 64) (n : Fin 196) (q : Fin 1) :
    val_main_v16 (F := Ideal) x0 (ix3 bi n q) = mean (vecOf x0 bi n) := by
  rw [val_main_v16_apply, val_main_v14_apply, val_main_v15_apply, val_main_cst_3_apply,
    show idx_main_v14 (ix3 bi n q) = ix2 bi n from funext fun a => Fin.ext (by
      match a with | ⟨0, _⟩ => rfl | ⟨1, _⟩ => rfl), total_at]
  rfl

/-- The deviation from the mean at (image, patch, k), through either of the two broadcasts of the mean column. -/
theorem dev_at (bi : Fin 64) (n : Fin 196) (k : Fin 3840) :
    val_main_v18 (F := Ideal) x0 (ix3 bi n k) = vecOf x0 bi n k - mean (vecOf x0 bi n) := by
  rw [val_main_v18_apply, val_main_v17_apply, flat_at,
    show idx_main_v17 (ix3 bi n k) = ix3 bi n (0 : Fin 1) from funext fun a => Fin.ext (by
      match a with | ⟨0, _⟩ => rfl | ⟨1, _⟩ => rfl | ⟨2, _⟩ => rfl), mean_at]
  rfl

theorem dev_at' (bi : Fin 64) (n : Fin 196) (k : Fin 3840) :
    val_main_v25 (F := Ideal) x0 (ix3 bi n k) = vecOf x0 bi n k - mean (vecOf x0 bi n) := by
  rw [val_main_v25_apply, val_main_v24_apply, flat_at,
    show idx_main_v24 (ix3 bi n k) = ix3 bi n (0 : Fin 1) from funext fun a => Fin.ext (by
      match a with | ⟨0, _⟩ => rfl | ⟨1, _⟩ => rfl | ⟨2, _⟩ => rfl), mean_at]
  rfl

/-- The second host sum at (image, patch): the sum of the squared deviations. -/
theorem squares_at (bi : Fin 64) (n : Fin 196) :
    val_main_v20 (F := Ideal) x0 (ix2 bi n)
      = ∑ k : Fin 3840, (vecOf x0 bi n k - mean (vecOf x0 bi n)) * (vecOf x0 bi n k - mean (vecOf x0 bi n)) := by
  rw [val_main_v20_apply, val_main_cst_4_apply]
  show Ideal.ofBits .f32 0x00000000#32 + _ = _
  rw [Ideal.ofBits_zero_f32, zero_add]
  refine Finset.sum_congr rfl fun k _ => ?_
  rw [show idx_main_v20 (ix2 bi n) k = ix3 bi n k from funext fun a => Fin.ext (by
    match a with | ⟨0, _⟩ => rfl | ⟨1, _⟩ => rfl | ⟨2, _⟩ => rfl), val_main_v19_apply, dev_at]
  rfl

/-- The reciprocal root of the shifted variance at (image, patch). -/
theorem scale_at (bi : Fin 64) (n : Fin 196) (q : Fin 1) :
    val_main_v28 (F := Ideal) x0 (ix3 bi n q) = Ideal.rsqrt (variance (vecOf x0 bi n) + eps) := by
  rw [val_main_v28_apply, val_main_v27_apply, val_main_v23_apply, val_main_v21_apply, val_main_v22_apply, val_main_cst_5_apply,
    val_main_v26_apply, val_main_cst_6_apply,
    show idx_main_v21 (ix3 bi n q) = ix2 bi n from funext fun a => Fin.ext (by
      match a with | ⟨0, _⟩ => rfl | ⟨1, _⟩ => rfl), squares_at]
  rfl

/-- The normalised, scaled and shifted row at (image, patch, k). -/
theorem normalised_at (x1 x2 : (⟨S3840, .f32⟩ : BufTy).Contents (Elt Ideal)) (bi : Fin 64) (n : Fin 196) (k : Fin 3840) :
    val_main_v36 (F := Ideal) x0 x1 x2 (ix3 bi n k)
      = normalised (vecOf x0 bi n) (fun k => x1 (ix1 k)) (fun k => x2 (ix1 k)) k := by
  rw [val_main_v36_apply, val_main_v33_apply, val_main_v30_apply, dev_at', val_main_v29_apply,
    show idx_main_v29 (ix3 bi n k) = ix3 bi n (0 : Fin 1) from funext fun a => Fin.ext (by
      match a with | ⟨0, _⟩ => rfl | ⟨1, _⟩ => rfl | ⟨2, _⟩ => rfl), scale_at,
    val_main_v32_apply, val_main_v31_apply, val_main_v35_apply, val_main_v34_apply,
    show idx_main_v31 (idx_main_v32 (ix3 bi n k)) = ix1 k from funext fun a => Fin.ext (by
      match a with | ⟨0, _⟩ => rfl),
    show idx_main_v34 (idx_main_v35 (ix3 bi n k)) = ix1 k from funext fun a => Fin.ext (by
      match a with | ⟨0, _⟩ => rfl)]
  rfl

/-- The reference's tokens are the specification's, of its own patch tensor. -/
theorem tokens_eq (x1 x2 : (⟨S3840, .f32⟩ : BufTy).Contents (Elt Ideal)) (x3 : (⟨S3840x768, .f32⟩ : BufTy).Contents (Elt Ideal))
    (x4 : (⟨S768, .f32⟩ : BufTy).Contents (Elt Ideal)) :
    val_main_v40 (F := Ideal) x0 x1 x2 x3 x4 = tokens (val_main_v11 (F := Ideal) x0) x1 x2 x3 x4 := by
  funext i
  obtain ⟨bi, n, e, rfl⟩ : ∃ (bi : Fin 64) (n : Fin 196) (e : Fin 768), i = ix3 bi n e := ⟨i 0, i 1, i 2, eq_ix3 i⟩
  rw [val_main_v40_apply, val_main_v37_apply, val_main_v39_apply, val_main_v38_apply,
    show idx_main_v38 (idx_main_v39 (ix3 bi n e)) = ix1 e from funext fun a => Fin.ext (by
      match a with | ⟨0, _⟩ => rfl)]
  unfold tokens tokenRows projected
  refine congrArg (· + x4 (ix1 e)) (Finset.sum_congr rfl fun k _ => ?_)
  rw [show lidx_main_v37 (ix3 bi n e) k = ix3 bi n k from funext fun a => Fin.ext (by
      match a with | ⟨0, _⟩ => rfl | ⟨1, _⟩ => rfl | ⟨2, _⟩ => rfl),
    show ridx_main_v37 (ix3 bi n e) k = ix2 k e from funext fun a => Fin.ext (by
      match a with | ⟨0, _⟩ => rfl | ⟨1, _⟩ => rfl), normalised_at]

end Cert.ReferenceIdeal.RefValue

end
-- ==== Proof.lean ====
/-
  The five claims of this certificate.

  The kernel computes, for each of the 12544 patch vectors of a batch of 64 images (each vector the 3840 entries of a
  16 x 16 patch of the image joined with four half-patch shifts of itself), its layer normalisation followed by a
  dense projection to 768 entries, one tile of 256 vectors per grid point; the reference computes the same with whole
  host operations.  Over the extended reals both are the function `tokens` of the patch tensor and the four
  parameters (Proof/Spec.lean): the kernel's side is read off its run tile by tile (Proof/KernelIdealValue.lean over
  Proof/KernelIdealFrame.lean and Proof/KernelIdealTile.lean), the reference's side stage by stage
  (Proof/RefValue.lean).  Sums over a row appear on both sides as the same finite sum, the quotient, the reciprocal
  square root and every literal are the same on both sides, and a change of float format is the identity, so no
  law of the extended reals beyond `0 + x = x` is used and the precondition is never opened.  The patch tensor,
  the second result, is the same composition of host operations in both programs.
  The three frames: each program runs to its end and leaves its five arguments unchanged (Proof/KernelFrame.lean and
  Proof/KernelIdealFrame.lean for the two kernel programs; the reference's is its run with the results dropped).
  The idealization rewrote no operation, so its conjunct is trivial.
-/
import proofs.«145654_j27805618274639_2_alg».proof.Defs
import proofs.«145654_j27805618274639_2_alg».proof.Proof.Gen.Kernel
import proofs.«145654_j27805618274639_2_alg».proof.Proof.Gen.KernelIdeal
import proofs.«145654_j27805618274639_2_alg».proof.Proof.Gen.ReferenceIdeal
import proofs.«145654_j27805618274639_2_alg».proof.Proof.Gen.ReferenceIdeal.Run
import proofs.«145654_j27805618274639_2_alg».proof.Proof.Gen.ReferenceIdeal.Read
import proofs.«145654_j27805618274639_2_alg».proof.Proof.Gen.Pre_finite_inputs
import proofs.«145654_j27805618274639_2_alg».proof.Proof.KernelFrame
import proofs.«145654_j27805618274639_2_alg».proof.Proof.KernelIdealFrame
import proofs.«145654_j27805618274639_2_alg».proof.Proof.KernelIdealValue
import proofs.«145654_j27805618274639_2_alg».proof.Proof.RefValue

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Frame.frame (F := Bits) m ρ

theorem frame_kernel_ideal : Cert.frame_KernelIdeal (hKernelIdeal := Cert.KernelIdeal.Gen.facts) (hPre_finite_inputs := Cert.Pre_finite_inputs.Gen.facts) :=
  fun m ρ _ => Cert.KernelIdeal.Frame.frame (F := Ideal) m ρ

/-- The reference's frame is its run with the two results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From agreeing arguments both idealized programs end with the tokens at `tokens` of the image's patch tensor and
    the parameters, and with that patch tensor as their second result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.TokensValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v40_eq, Cert.ReferenceIdeal.RefValue.tokens_eq,
      (hagree c).1, (hagree c).2.1, (hagree c).2.2.1, (hagree c).2.2.2.1, (hagree c).2.2.2.2]
  · rw [(h c).2.1, Cert.ReferenceIdeal.Read.val_main_v11_eq, (hagree c).1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
